-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2048x2048 : Shape := ⟨2, ![2048, 2048]⟩
abbrev S8192x2048 : Shape := ⟨2, ![8192, 2048]⟩
abbrev S8192 : Shape := ⟨1, ![8192]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S2x4096x2048 .f32) (main_arg1 : FVec F S2048x2048 .f32) (main_arg2 : FVec F S8192x2048 .f32) (main_arg3 : FVec F S8192 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S2x4096x2048 : Shape := ⟨3, ![2, 4096, 2048]⟩
abbrev S2048x2048 : Shape := ⟨2, ![2048, 2048]⟩
abbrev S8192x2048 : Shape := ⟨2, ![8192, 2048]⟩
abbrev S8192 : Shape := ⟨1, ![8192]⟩
abbrev S2048x4x2048 : Shape := ⟨3, ![2048, 4, 2048]⟩
abbrev S4x2048x2048 : Shape := ⟨3, ![4, 2048, 2048]⟩
abbrev S2048x4 : Shape := ⟨2, ![2048, 4]⟩
abbrev S4x2048 : Shape := ⟨2, ![4, 2048]⟩
abbrev S1x128x2048 : Shape := ⟨3, ![1, 128, 2048]⟩
abbrev S1x8x2048 : Shape := ⟨3, ![1, 8, 2048]⟩
abbrev S128x2048 : Shape := ⟨2, ![128, 2048]⟩
abbrev S8x2048 : Shape := ⟨2, ![8, 2048]⟩
abbrev S3x2048 : Shape := ⟨2, ![3, 2048]⟩
abbrev S131x2048 : Shape := ⟨2, ![131, 2048]⟩
abbrev S1x2048x2048 : Shape := ⟨3, ![1, 2048, 2048]⟩
abbrev S1x2048 : Shape := ⟨2, ![1, 2048]⟩
abbrev S2048 : Shape := ⟨1, ![2048]⟩

abbrev nBuf : Space → Nat
  | .hbm => 12
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S8192x2048, .f32⟩
  | .hbm, ⟨3, _⟩ => ⟨S8192, .f32⟩
  | .hbm, ⟨4, _⟩ => ⟨S2048x2048, .f32⟩
  | .hbm, ⟨5, _⟩ => ⟨S2048x2048, .bf16⟩
  | .hbm, ⟨6, _⟩ => ⟨S2048x4x2048, .f32⟩
  | .hbm, ⟨7, _⟩ => ⟨S4x2048x2048, .f32⟩
  | .hbm, ⟨8, _⟩ => ⟨S4x2048x2048, .bf16⟩
  | .hbm, ⟨9, _⟩ => ⟨S2048x4, .f32⟩
  | .hbm, ⟨10, _⟩ => ⟨S4x2048, .f32⟩
  | .hbm, ⟨11, _⟩ => ⟨S2x4096x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x8x2048, .f32⟩
  | .local _ .vmem, ⟨3, _⟩ => ⟨S1x8x2048, .f32⟩
  | .local _ .vmem, ⟨4, _⟩ => ⟨S2048x2048, .bf16⟩
  | .local _ .vmem, ⟨5, _⟩ => ⟨S4x2048x2048, .bf16⟩
  | .local _ .vmem, ⟨6, _⟩ => ⟨S4x2048, .f32⟩
  | .local _ .vmem, ⟨7, _⟩ => ⟨S1x128x2048, .f32⟩
  | .local _ .vmem, ⟨8, _⟩ => ⟨S1x128x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S2048x2048_S2048x2048_1_0 : S2048x2048.Transposes [1, 0] S2048x2048
  bitsLt_bf16_f32 : FTy.bits .bf16 < FTy.bits .f32
  shapeCasts_S8192x2048_S2048x4x2048 : S8192x2048.ShapeCasts S2048x4x2048
  transposes_S2048x4x2048_S4x2048x2048_1_2_0 : S2048x4x2048.Transposes [1, 2, 0] S4x2048x2048
  shapeCasts_S8192_S2048x4 : S8192.ShapeCasts S2048x4
  transposes_S2048x4_S4x2048_1_0 : S2048x4.Transposes [1, 0] S4x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  slices_S8x2048_o5_0_S3x2048 : S8x2048.Slices ![5, 0] S3x2048
  concatenates_S3x2048_S128x2048_S131x2048_d0 : Shape.Concatenates [S3x2048, S128x2048] S131x2048 0
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  slices_S131x2048_o0_0_S128x2048 : S131x2048.Slices ![0, 0] S128x2048
  inb_S4x2048x2048_S1x2048x2048_0_0_0 : ∀ a, (![0, 0, 0] : Fin 3 → Nat) a + S1x2048x2048.size a ≤ S4x2048x2048.size a
  h_S1x2048x2048 : 0 < S1x2048x2048.numel
  shapeCasts_S1x2048x2048_S2048x2048 : S1x2048x2048.ShapeCasts S2048x2048
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S1x2048 : S2048.ShapeCasts S1x2048
  broadcasts_S1x2048_S128x2048 : S1x2048.Broadcasts S128x2048
  slices_S131x2048_o1_0_S128x2048 : S131x2048.Slices ![1, 0] S128x2048
  inb_S4x2048x2048_S1x2048x2048_1_0_0 : ∀ a, (![1, 0, 0] : Fin 3 → Nat) a + S1x2048x2048.size a ≤ S4x2048x2048.size a
  inb_S4x2048_S1x2048_1_0 : ∀ a, (![1, 0] : Fin 2 → Nat) a + S1x2048.size a ≤ S4x2048.size a
  slices_S131x2048_o2_0_S128x2048 : S131x2048.Slices ![2, 0] S128x2048
  inb_S4x2048x2048_S1x2048x2048_2_0_0 : ∀ a, (![2, 0, 0] : Fin 3 → Nat) a + S1x2048x2048.size a ≤ S4x2048x2048.size a
  inb_S4x2048_S1x2048_2_0 : ∀ a, (![2, 0] : Fin 2 → Nat) a + S1x2048.size a ≤ S4x2048.size a
  slices_S131x2048_o3_0_S128x2048 : S131x2048.Slices ![3, 0] S128x2048
  inb_S4x2048x2048_S1x2048x2048_3_0_0 : ∀ a, (![3, 0, 0] : Fin 3 → Nat) a + S1x2048x2048.size a ≤ S4x2048x2048.size a
  inb_S4x2048_S1x2048_3_0 : ∀ a, (![3, 0] : Fin 2 → Nat) a + S1x2048.size a ≤ S4x2048.size a
  shapeCasts_S128x2048_S1x128x2048 : S128x2048.ShapeCasts S1x128x2048
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S2x4096x2048.size a
  hwx0_0 : ∀ i : grid0.Coords, EltTy.bits .f32 = 32 ∨ (Rect.block (s := S2x4096x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S2x4096x2048.size a
  hwx0_1 : ∀ i : grid0.Coords, EltTy.bits .f32 = 32 ∨ (Rect.block (s := S2x4096x2048) S1x8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2048x2048.size a ≤ S4x2048x2048.size a
  hwx0_3 : ∀ i : grid0.Coords, EltTy.bits .bf16 = 32 ∨ (Rect.block (s := S4x2048x2048) S4x2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x2048.size a ≤ S4x2048.size a
  hwx0_4 : ∀ i : grid0.Coords, EltTy.bits .f32 = 32 ∨ (Rect.block (s := S4x2048) S4x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x2048.size a ≤ S2x4096x2048.size a
  hwx0_5 : ∀ i : grid0.Coords, EltTy.bits .f32 = 32 ∨ (Rect.block (s := S2x4096x2048) S1x128x2048.size (cc0_transform_5 i) (hinb0_5 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S2048x2048 : Shape := ⟨2, ![2048, 2048]⟩
abbrev S8192x2048 : Shape := ⟨2, ![8192, 2048]⟩
abbrev S8192 : Shape := ⟨1, ![8192]⟩
abbrev S_ : Shape := ⟨0, ![]⟩
abbrev S2x4096x8192 : Shape := ⟨3, ![2, 4096, 8192]⟩
abbrev S1x1x8192 : Shape := ⟨3, ![1, 1, 8192]⟩
abbrev S2x4096x2048x4 : Shape := ⟨4, ![2, 4096, 2048, 4]⟩
abbrev S2x4099x2048 : Shape := ⟨3, ![2, 4099, 2048]⟩
abbrev S2x4096x2048x1 : Shape := ⟨4, ![2, 4096, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S8192x2048, .f32⟩
  | .hbm, ⟨3, _⟩ => ⟨S8192, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x8192, .f32⟩
  | .hbm, ⟨15, _⟩ => ⟨S1x1x8192, .f32⟩
  | .hbm, ⟨16, _⟩ => ⟨S2x4096x8192, .f32⟩
  | .hbm, ⟨17, _⟩ => ⟨S2x4096x8192, .f32⟩
  | .hbm, ⟨18, _⟩ => ⟨S2x4096x2048x4, .f32⟩
  | .hbm, ⟨19, _⟩ => ⟨S_, .i32⟩
  | .hbm, ⟨20, _⟩ => ⟨S_, .f32⟩
  | .hbm, ⟨21, _⟩ => ⟨S2x4099x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048x1, .f32⟩
  | .hbm, ⟨27, _⟩ => ⟨S2x4096x2048x1, .f32⟩
  | .hbm, ⟨28, _⟩ => ⟨S2x4096x2048x1, .f32⟩
  | .hbm, ⟨29, _⟩ => ⟨S2x4096x2048x1, .f32⟩
  | .hbm, ⟨30, _⟩ => ⟨S2x4096x2048x4, .f32⟩
  | .hbm, ⟨31, _⟩ => ⟨S2x4096x2048x4, .f32⟩
  | .hbm, ⟨32, _⟩ => ⟨S_, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x4096x2048, .f32⟩
  | .hbm, ⟨38, _⟩ => ⟨S2x4096x2048, .f32⟩
  | .hbm, ⟨39, _⟩ => ⟨S_, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v19 : Ref sig .tc := ⟨.hbm, 42, rfl⟩

abbrev nD : Nat := 1
abbrev τ : Topo := Topo.v7x

variable {F : FTy → Type} [FloatOps F]

class Facts₀ : Prop where
  bcast_S_S2x4096x2048 : S_.BroadcastsInDim S2x4096x2048 (![] : Fin 0 → Fin S2x4096x2048.rank)
  bcast_S8192_S1x1x8192_2 : S8192.BroadcastsInDim S1x1x8192 (![2] : Fin 1 → Fin S1x1x8192.rank)
  bcast_S1x1x8192_S2x4096x8192_0_1_2 : S1x1x8192.BroadcastsInDim S2x4096x8192 (![0, 1, 2] : Fin 3 → Fin S2x4096x8192.rank)
  shapeCasts_S2x4096x8192_S2x4096x2048x4 : S2x4096x8192.ShapeCasts S2x4096x2048x4
  pads_S2x4096x2048_S2x4099x2048_000_300_000 : S2x4096x2048.Pads (![0, 3, 0] : Fin 3 → Nat) ![0, 0, 0] ![0, 0, 0] S2x4099x2048
  h_S_ : 0 < S_.numel
  slices_S2x4099x2048_S2x4096x2048_0_0_0 : S2x4099x2048.Slices ![0, 0, 0] S2x4096x2048
  slices_S2x4099x2048_S2x4096x2048_0_1_0 : S2x4099x2048.Slices ![0, 1, 0] S2x4096x2048
  slices_S2x4099x2048_S2x4096x2048_0_2_0 : S2x4099x2048.Slices ![0, 2, 0] S2x4096x2048
  slices_S2x4099x2048_S2x4096x2048_0_3_0 : S2x4099x2048.Slices ![0, 3, 0] S2x4096x2048
  bcast_S2x4096x2048_S2x4096x2048x1_0_1_2 : S2x4096x2048.BroadcastsInDim S2x4096x2048x1 (![0, 1, 2] : Fin 3 → Fin S2x4096x2048x1.rank)
  concatenates_S2x4096x2048x1_S2x4096x2048x1_S2x4096x2048x1_S2x4096x2048x1_S2x4096x2048x4_d3 : Shape.Concatenates [S2x4096x2048x1, S2x4096x2048x1, S2x4096x2048x1, S2x4096x2048x1] S2x4096x2048x4 3
  reducesTo_S2x4096x2048x4_S2x4096x2048_d3 : S2x4096x2048x4.ReducesTo [3] S2x4096x2048
  dot_S2x4096x2048_S2048x2048_S2x4096x2048_2_1_01_0_n_n_wf : DotDims.WF S2x4096x2048 S2048x2048 S2x4096x2048 [2] [1] [0, 1] [0] [] []
  dot_S2x4096x2048_S8192x2048_S2x4096x8192_2_1_01_0_n_n_wf : DotDims.WF S2x4096x2048 S8192x2048 S2x4096x8192 [2] [1] [0, 1] [0] [] []

variable [Facts₀]

def dot_S2x4096x2048_S2048x2048_S2x4096x2048_2_1_01_0_n_n : DotDims S2x4096x2048 S2048x2048 S2x4096x2048 where
  lhsContracting := [2]
  rhsContracting := [1]
  lhsNonContracting := [0, 1]
  rhsNonContracting := [0]
  lhsBatch := []
  rhsBatch := []
  wf := dot_S2x4096x2048_S2048x2048_S2x4096x2048_2_1_01_0_n_n_wf
def dot_S2x4096x2048_S8192x2048_S2x4096x8192_2_1_01_0_n_n : DotDims S2x4096x2048 S8192x2048 S2x4096x8192 where
  lhsContracting := [2]
  rhsContracting := [1]
  lhsNonContracting := [0, 1]
  rhsNonContracting := [0]
  lhsBatch := []
  rhsBatch := []
  wf := dot_S2x4096x2048_S8192x2048_S2x4096x8192_2_1_01_0_n_n_wf

class Facts : Prop extends Facts₀ where

variable [Facts]
-- ==== Proof.KernelOut.lean ====
/-
  What one grid point's body leaves in the output window's staging buffer, as a pure function of the five input
  blocks it loads: the current time tile `x0` (128 rows), the 8-row halo `x1` that ends just before the tile, the first
  layer `a` (already transposed), the four second-layer taps `k` and their bias rows `bb`. The body has one store, through the
  whole-buffer rectangle, so the buffer ends at that store's payload; the payload is the composition of the generated
  skeleton's named pieces over the eleven loads.
-/
import proofs.«130845_j22016002359687_1_alg».proof.Proof.Gen.Kernel.Skeleton
import Idealize.ShloMosaic.Lib.Pipeline.FrameBody

noncomputable section

namespace Cert.Kernel.Body

open Idealize.ShloMosaic Idealize.SL.Sem
open Cert.Kernel Cert.Kernel.Gen

variable {F : FTy → Type} [FloatOps F]

/-- The whole time tile `[1, 128, 2048]`: the rectangle of the tile's load and of the output's store. -/
abbrev rTile : Rect S1x128x2048 := Rect.unit (s := S1x128x2048) ![0, 0, 0] S1x128x2048.size inb_S1x128x2048_S1x128x2048_0_0_0
/-- The whole halo `[1, 8, 2048]`. -/
abbrev rHalo : Rect S1x8x2048 := Rect.unit (s := S1x8x2048) ![0, 0, 0] S1x8x2048.size inb_S1x8x2048_S1x8x2048_0_0_0
/-- The whole first layer `[2048, 2048]`. -/
abbrev rW1 : Rect S2048x2048 := Rect.unit (s := S2048x2048) ![0, 0] S2048x2048.size inb_S2048x2048_S2048x2048_0_0
/-- Tap `w` of the second layer, a `[1, 2048, 2048]` slab of `[4, 2048, 2048]`. -/
abbrev rTap0 : Rect S4x2048x2048 := Rect.unit (s := S4x2048x2048) ![0, 0, 0] S1x2048x2048.size inb_S4x2048x2048_S1x2048x2048_0_0_0
abbrev rTap1 : Rect S4x2048x2048 := Rect.unit (s := S4x2048x2048) ![1, 0, 0] S1x2048x2048.size inb_S4x2048x2048_S1x2048x2048_1_0_0
abbrev rTap2 : Rect S4x2048x2048 := Rect.unit (s := S4x2048x2048) ![2, 0, 0] S1x2048x2048.size inb_S4x2048x2048_S1x2048x2048_2_0_0
abbrev rTap3 : Rect S4x2048x2048 := Rect.unit (s := S4x2048x2048) ![3, 0, 0] S1x2048x2048.size inb_S4x2048x2048_S1x2048x2048_3_0_0
/-- Bias row `w`, a `[1, 2048]` row of `[4, 2048]`. -/
abbrev rBias0 : Rect S4x2048 := Rect.unit (s := S4x2048) ![0, 0] S1x2048.size inb_S4x2048_S1x2048_0_0
abbrev rBias1 : Rect S4x2048 := Rect.unit (s := S4x2048) ![1, 0] S1x2048.size inb_S4x2048_S1x2048_1_0
abbrev rBias2 : Rect S4x2048 := Rect.unit (s := S4x2048) ![2, 0] S1x2048.size inb_S4x2048_S1x2048_2_0
abbrev rBias3 : Rect S4x2048 := Rect.unit (s := S4x2048) ![3, 0] S1x2048.size inb_S4x2048_S1x2048_3_0

/-- The value the body stores at grid point `i`, from the five input blocks. -/
def stored (i : grid0.Coords) (x0 : Vec F S1x128x2048 .f32) (x1 : Vec F S1x8x2048 .f32) (a : Vec F S2048x2048 .bf16)
    (k : Vec F S4x2048x2048 .bf16) (bb : Vec F S4x2048 .f32) : Vec F S1x128x2048 .f32 :=
  k0_pay1
    (k0_pay3 i (View.ld x0 rTile) (View.ld x1 rHalo))
    (k0_pay4 (View.ld x0 rTile) (View.ld a rW1))
    (k0_pay5 i (View.ld x0 rTile) (View.ld x1 rHalo) (View.ld a rW1) (View.ld k rTap0) (View.ld bb rBias0))
    (k0_pay6 i (View.ld x0 rTile) (View.ld x1 rHalo))
    (k0_pay7 (View.ld x0 rTile) (View.ld a rW1) (View.ld k rTap1))
    (k0_pay8 (View.ld bb rBias1))
    (View.ld k rTap2) (View.ld bb rBias2) (View.ld k rTap3) (View.ld bb rBias3)

/-- The output window's staging buffer after the body: its one store laid over whatever was there. -/
def out5 (i : grid0.Coords) (x0 : Vec F S1x128x2048 .f32) (x1 : Vec F S1x8x2048 .f32) (a : Vec F S2048x2048 .bf16)
    (k : Vec F S4x2048x2048 .bf16) (bb : Vec F S4x2048 .f32) : Vec F S1x128x2048 .f32 :=
  View.canon [⟨rTile, stored i x0 x1 a k bb⟩]

end Cert.Kernel.Body

end
-- ==== Proof.LibSharedFrame.lean ====
/-
  The frame run of a pipelined kernel whose input windows may read ONE array through several block maps.

  When every window has an array of its own, each array is held whole at the full share and handed to its window. When two
  input windows read one array (a tile and a halo of the same sequence, say), the full share of that array has to be DIVIDED
  between them: each window holds the array at a positive share of its own, the shares composing to the full one. How the
  shares are dealt is the certificate's to say (`hsplit`); the rest of the run is the plain frame run: the kernel body
  keeps nothing between grid points (its invariant is the core's scoped buffers that are no staging buffer, each at some
  contents), owes nothing, and uses no semaphore besides the windows' staging cells. The conclusion is the library's
  frame post: every window's array ends at what the proof data computes (an input its entry contents, an output those
  overwritten block by block by what the body left), every other unscoped buffer as the region found it.

  Stated for any program, any element values, any extents.
-/
import Idealize.ShloMosaic.Lib.Pipeline.Frame
import Idealize.ShloMosaic.Lib.Pipeline.Kit

noncomputable section

namespace Cert.Lib.SharedFrame

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for windows that may share arrays: the layout without the arrays' distinctness (`hw`), the
    staging cells pairwise distinct (`hinj`), the body obligation at every point (`hbody`), @main up to the region
    (`hmain`), the arrays' full shares dealt among the windows (`hsplit`), and an invariant that is the scoped rest
    at every point (`hΦ`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => by
      rw [hΦ]
      iintro ⟨-, HR⟩
      iexact HR)
    (hout := fun c => by
      rw [hΦ]
      iintro HR
      isplitr; · iempintro
      iexact HR)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.KernelFrame.lean ====
/-
  The frame of the kernel's run, and what its result array holds afterwards.

  The pallas_call reads the sequence `x` through TWO input windows — the current 128-row time tile and the 8-row halo that
  ends just before it — besides the three weight windows, and writes one output window. Both sequence windows only read
  `x`, so the full share of `x` is divided: the tile window holds the left half, the halo window the right half; every other
  array is held at the full share by its one window. The body keeps nothing between grid points, uses no semaphore of its own
  and no scratch, so the run is the plain frame run of a body that loads its five input blocks whole (the taps and the bias
  rows slab by slab), computes, and stores the whole output block once:
    * every input window's staging buffer holds, at every point, that window's block of its array as the region found it;
    * the output window's staging buffer is left at `out5` of the five input blocks (module …Out);
    * afterwards the argument arrays are unchanged and the result array is what the library computes from the blocks written
      back point by point (`Dat.arrAt 5 N`).
-/
import proofs.«130845_j22016002359687_1_alg».proof.Proof.Gen.Kernel.Launch
import proofs.«130845_j22016002359687_1_alg».proof.Proof.Gen.Kernel.Skeleton
import proofs.«130845_j22016002359687_1_alg».proof.Proof.Gen.Kernel.Points
import proofs.«130845_j22016002359687_1_alg».proof.Proof.KernelOut
import proofs.«130845_j22016002359687_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the seven host operations that lay the weights out. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved), for any proof data whose array is the region's and whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

/-! ## The body's triple -/

/-- The one store tiles the output buffer, so it covers it. -/
theorem cover5 (p0 : Vec F S1x128x2048 .f32) (y : S1x128x2048.Idx) :
    ∃ pc ∈ ([⟨rTile, p0⟩] : List (View.Piece (Elt F) S1x128x2048 .f32)), y ∈ pc.1.set :=
  View.cover_of_tiled [⟨rTile, p0⟩] S1x128x2048.size (by rfl) y

set_option maxHeartbeats 4000000 in
/-- The body at grid point `i` on whole staging memrefs — the five inputs' at read contents, the output's at anything — runs
    to the continuation holding the inputs' as they were and the output's at `out5` of the inputs. -/
theorem sound_kernel (c : Dev nD) (E : Set ℕ) (i : grid0.Coords)
    (arg2 : Memref sig .tc .vmem S1x128x2048 .f32) (harg2 : arg2.IsWhole) (arg3 : Memref sig .tc .vmem S1x8x2048 .f32) (harg3 : arg3.IsWhole)
    (arg4 : Memref sig .tc .vmem S2048x2048 .bf16) (harg4 : arg4.IsWhole) (arg5 : Memref sig .tc .vmem S4x2048x2048 .bf16) (harg5 : arg5.IsWhole)
    (arg6 : Memref sig .tc .vmem S4x2048 .f32) (harg6 : arg6.IsWhole) (arg7 : Memref sig .tc .vmem S1x128x2048 .f32) (harg7 : arg7.IsWhole)
    (x0 : Vec F S1x128x2048 .f32) (x1 : Vec F S1x8x2048 .f32) (a : Vec F S2048x2048 .bf16) (k : Vec F S4x2048x2048 .bf16) (bb : Vec F S4x2048 .f32)
    (K : PUnit → sProp 𝕄) :
    iprop(owns (c : Thread nD τ) arg2 fullShare x0 ∗ owns (c : Thread nD τ) arg3 fullShare x1 ∗ owns (c : Thread nD τ) arg4 fullShare a
        ∗ owns (c : Thread nD τ) arg5 fullShare k ∗ owns (c : Thread nD τ) arg6 fullShare bb ∗ (∃ d, owns (c : Thread nD τ) arg7 fullShare d)
        ∗ (iprop(owns (c : Thread nD τ) arg2 fullShare x0 ∗ owns (c : Thread nD τ) arg3 fullShare x1 ∗ owns (c : Thread nD τ) arg4 fullShare a
            ∗ owns (c : Thread nD τ) arg5 fullShare k ∗ owns (c : Thread nD τ) arg6 fullShare bb
            ∗ owns (c : Thread nD τ) arg7 fullShare (out5 i x0 x1 a k bb)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the one pipeline on core `c`: the arrays as the region finds them; after the body at point `t` each input's
    buffer at its block and the output's at `out5` of the five input blocks; the invariant the scoped buffers that are no staging
    buffer (there are none); nothing owed; the sequence's full share dealt left / right between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out5 (grid0.coords t) (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  (before_in_of (dats m 0 c) 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  (before_in_of (dats m 0 c) 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  (before_in_of (dats m 0 c) 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  (before_in_of (dats m 0 c) 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  (before_in_of (dats m 0 c) 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the core's
    tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Dealing the arrays' shares among the windows -/

/-- The five distinct buffers behind the six windows' arrays, each whole at the full share, make the windows' arrays at
    entry: the sequence's points-to is divided along the share into a left half for the tile window and a right half for
    the halo window; each other array goes whole to its one window. -/
theorem hsplit (c : Dev nD) :
    (Pipeline.arrBufs spec0 c (V m c) : sProp 𝕄) ⊢ (dats m 0 c).arrays ((dats m 0 c).arrAt · 0) := by
  have hL : (bigSep (Finset.univ.image (Pipeline.arrRef spec0)) fun b => ((((c : Thread nD τ).loc b) ↦{fullShare} V m c b : sProp 𝕄)))
      = iprop((((c : Thread nD τ).loc main_arg0) ↦{fullShare} V m c main_arg0) ∗ (((c : Thread nD τ).loc main_v1) ↦{fullShare} V m c main_v1)
          ∗ (((c : Thread nD τ).loc main_v4) ↦{fullShare} V m c main_v4) ∗ (((c : Thread nD τ).loc main_v6) ↦{fullShare} V m c main_v6)
          ∗ (((c : Thread nD τ).loc main_v7) ↦{fullShare} V m c main_v7)) :=
    bigSep_eq_bigSepL_of_eq [main_arg0, main_v1, main_v4, main_v6, main_v7] (by decide) (by decide) _
  unfold Pipeline.arrBufs Dat.arrays
  rw [hL, bigSep_W0]
  iintro ⟨H0, H1, H4, H6, H7⟩
  ihave Hs := (pointsTo_share (PosShare.mem_left_op_right fullShare)).1 $$ H0
  icases Hs with ⟨Ha, Hb⟩
  isplitl [Ha]
  · rw [(arr_whole0 0).set_eq_univ]; iexact Ha
  isplitl [Hb]
  · rw [(arr_whole0 1).set_eq_univ]; iexact Hb
  isplitl [H1]
  · rw [(arr_whole0 2).set_eq_univ]; iexact H1
  isplitl [H4]
  · rw [(arr_whole0 3).set_eq_univ]; iexact H4
  isplitl [H6]
  · rw [(arr_whole0 4).set_eq_univ]; iexact H6
  · rw [(arr_whole0 5).set_eq_univ]; iexact H7

/-! ## The run -/

set_option backward.isDefEq.respectTransparency.types false in
/-- Every weakly fair execution of @main terminates, and every final state has every array of the pipeline at what the library
    computes from the proof data and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ _ => rfl)

/-- The run read at the program's arrays: the result array at what the blocks written back make of it, the four
    argument arrays unchanged. -/
theorem run_arrays : θ_run defs (onTc (τ := τ) (main (F := F))) ⟨m, fun _ => 0, ρ⟩ (fun r => ∀ c : Dev nD,
      r.2.mem ((c.tc : Thread nD τ).loc main_v7) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

/-- The frame: the program runs to the end, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_arrays m ρ)

end Cert.Kernel.Body

end
-- ==== Proof.KernelIdealOut.lean ====
/-
  What one grid point's body leaves in the output window's staging buffer, as a pure function of the five input
  blocks it loads: the current time tile `x0` (128 rows), the 8-row halo `x1` that ends just before the tile, the first
  layer `a` (already transposed), the four second-layer taps `k` and their bias rows `bb`. The body has one store, through the
  whole-buffer rectangle, so the buffer ends at that store's payload; the payload is the composition of the generated
  skeleton's named pieces over the eleven loads.
-/
import proofs.«130845_j22016002359687_1_alg».proof.Proof.Gen.KernelIdeal.Skeleton
import Idealize.ShloMosaic.Lib.Pipeline.FrameBody

noncomputable section

namespace Cert.KernelIdeal.Body

open Idealize.ShloMosaic Idealize.SL.Sem
open Cert.KernelIdeal Cert.KernelIdeal.Gen

variable {F : FTy → Type} [FloatOps F]

/-- The whole time tile `[1, 128, 2048]`: the rectangle of the tile's load and of the output's store. -/
abbrev rTile : Rect S1x128x2048 := Rect.unit (s := S1x128x2048) ![0, 0, 0] S1x128x2048.size inb_S1x128x2048_S1x128x2048_0_0_0
/-- The whole halo `[1, 8, 2048]`. -/
abbrev rHalo : Rect S1x8x2048 := Rect.unit (s := S1x8x2048) ![0, 0, 0] S1x8x2048.size inb_S1x8x2048_S1x8x2048_0_0_0
/-- The whole first layer `[2048, 2048]`. -/
abbrev rW1 : Rect S2048x2048 := Rect.unit (s := S2048x2048) ![0, 0] S2048x2048.size inb_S2048x2048_S2048x2048_0_0
/-- Tap `w` of the second layer, a `[1, 2048, 2048]` slab of `[4, 2048, 2048]`. -/
abbrev rTap0 : Rect S4x2048x2048 := Rect.unit (s := S4x2048x2048) ![0, 0, 0] S1x2048x2048.size inb_S4x2048x2048_S1x2048x2048_0_0_0
abbrev rTap1 : Rect S4x2048x2048 := Rect.unit (s := S4x2048x2048) ![1, 0, 0] S1x2048x2048.size inb_S4x2048x2048_S1x2048x2048_1_0_0
abbrev rTap2 : Rect S4x2048x2048 := Rect.unit (s := S4x2048x2048) ![2, 0, 0] S1x2048x2048.size inb_S4x2048x2048_S1x2048x2048_2_0_0
abbrev rTap3 : Rect S4x2048x2048 := Rect.unit (s := S4x2048x2048) ![3, 0, 0] S1x2048x2048.size inb_S4x2048x2048_S1x2048x2048_3_0_0
/-- Bias row `w`, a `[1, 2048]` row of `[4, 2048]`. -/
abbrev rBias0 : Rect S4x2048 := Rect.unit (s := S4x2048) ![0, 0] S1x2048.size inb_S4x2048_S1x2048_0_0
abbrev rBias1 : Rect S4x2048 := Rect.unit (s := S4x2048) ![1, 0] S1x2048.size inb_S4x2048_S1x2048_1_0
abbrev rBias2 : Rect S4x2048 := Rect.unit (s := S4x2048) ![2, 0] S1x2048.size inb_S4x2048_S1x2048_2_0
abbrev rBias3 : Rect S4x2048 := Rect.unit (s := S4x2048) ![3, 0] S1x2048.size inb_S4x2048_S1x2048_3_0

/-- The value the body stores at grid point `i`, from the five input blocks. -/
def stored (i : grid0.Coords) (x0 : Vec F S1x128x2048 .f32) (x1 : Vec F S1x8x2048 .f32) (a : Vec F S2048x2048 .bf16)
    (k : Vec F S4x2048x2048 .bf16) (bb : Vec F S4x2048 .f32) : Vec F S1x128x2048 .f32 :=
  k0_pay1
    (k0_pay3 i (View.ld x0 rTile) (View.ld x1 rHalo))
    (k0_pay4 (View.ld x0 rTile) (View.ld a rW1))
    (k0_pay5 i (View.ld x0 rTile) (View.ld x1 rHalo) (View.ld a rW1) (View.ld k rTap0) (View.ld bb rBias0))
    (k0_pay6 i (View.ld x0 rTile) (View.ld x1 rHalo))
    (k0_pay7 (View.ld x0 rTile) (View.ld a rW1) (View.ld k rTap1))
    (k0_pay8 (View.ld bb rBias1))
    (View.ld k rTap2) (View.ld bb rBias2) (View.ld k rTap3) (View.ld bb rBias3)

/-- The output window's staging buffer after the body: its one store laid over whatever was there. -/
def out5 (i : grid0.Coords) (x0 : Vec F S1x128x2048 .f32) (x1 : Vec F S1x8x2048 .f32) (a : Vec F S2048x2048 .bf16)
    (k : Vec F S4x2048x2048 .bf16) (bb : Vec F S4x2048 .f32) : Vec F S1x128x2048 .f32 :=
  View.canon [⟨rTile, stored i x0 x1 a k bb⟩]

end Cert.KernelIdeal.Body

end
-- ==== Proof.KernelIdealFrame.lean ====
/-
  The frame of the kernel's run, and what its result array holds afterwards.

  The pallas_call reads the sequence `x` through TWO input windows — the current 128-row time tile and the 8-row halo that
  ends just before it — besides the three weight windows, and writes one output window. Both sequence windows only read
  `x`, so the full share of `x` is divided: the tile window holds the left half, the halo window the right half; every other
  array is held at the full share by its one window. The body keeps nothing between grid points, uses no semaphore of its own
  and no scratch, so the run is the plain frame run of a body that loads its five input blocks whole (the taps and the bias
  rows slab by slab), computes, and stores the whole output block once:
    * every input window's staging buffer holds, at every point, that window's block of its array as the region found it;
    * the output window's staging buffer is left at `out5` of the five input blocks (module …Out);
    * afterwards the argument arrays are unchanged and the result array is what the library computes from the blocks written
      back point by point (`Dat.arrAt 5 N`).
-/
import proofs.«130845_j22016002359687_1_alg».proof.Proof.Gen.KernelIdeal.Launch
import proofs.«130845_j22016002359687_1_alg».proof.Proof.Gen.KernelIdeal.Skeleton
import proofs.«130845_j22016002359687_1_alg».proof.Proof.Gen.KernelIdeal.Points
import proofs.«130845_j22016002359687_1_alg».proof.Proof.KernelIdealOut
import proofs.«130845_j22016002359687_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the seven host operations that lay the weights out. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved), for any proof data whose array is the region's and whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

/-! ## The body's triple -/

/-- The one store tiles the output buffer, so it covers it. -/
theorem cover5 (p0 : Vec F S1x128x2048 .f32) (y : S1x128x2048.Idx) :
    ∃ pc ∈ ([⟨rTile, p0⟩] : List (View.Piece (Elt F) S1x128x2048 .f32)), y ∈ pc.1.set :=
  View.cover_of_tiled [⟨rTile, p0⟩] S1x128x2048.size (by rfl) y

set_option maxHeartbeats 4000000 in
/-- The body at grid point `i` on whole staging memrefs — the five inputs' at read contents, the output's at anything — runs
    to the continuation holding the inputs' as they were and the output's at `out5` of the inputs. -/
theorem sound_kernel (c : Dev nD) (E : Set ℕ) (i : grid0.Coords)
    (arg2 : Memref sig .tc .vmem S1x128x2048 .f32) (harg2 : arg2.IsWhole) (arg3 : Memref sig .tc .vmem S1x8x2048 .f32) (harg3 : arg3.IsWhole)
    (arg4 : Memref sig .tc .vmem S2048x2048 .bf16) (harg4 : arg4.IsWhole) (arg5 : Memref sig .tc .vmem S4x2048x2048 .bf16) (harg5 : arg5.IsWhole)
    (arg6 : Memref sig .tc .vmem S4x2048 .f32) (harg6 : arg6.IsWhole) (arg7 : Memref sig .tc .vmem S1x128x2048 .f32) (harg7 : arg7.IsWhole)
    (x0 : Vec F S1x128x2048 .f32) (x1 : Vec F S1x8x2048 .f32) (a : Vec F S2048x2048 .bf16) (k : Vec F S4x2048x2048 .bf16) (bb : Vec F S4x2048 .f32)
    (K : PUnit → sProp 𝕄) :
    iprop(owns (c : Thread nD τ) arg2 fullShare x0 ∗ owns (c : Thread nD τ) arg3 fullShare x1 ∗ owns (c : Thread nD τ) arg4 fullShare a
        ∗ owns (c : Thread nD τ) arg5 fullShare k ∗ owns (c : Thread nD τ) arg6 fullShare bb ∗ (∃ d, owns (c : Thread nD τ) arg7 fullShare d)
        ∗ (iprop(owns (c : Thread nD τ) arg2 fullShare x0 ∗ owns (c : Thread nD τ) arg3 fullShare x1 ∗ owns (c : Thread nD τ) arg4 fullShare a
            ∗ owns (c : Thread nD τ) arg5 fullShare k ∗ owns (c : Thread nD τ) arg6 fullShare bb
            ∗ owns (c : Thread nD τ) arg7 fullShare (out5 i x0 x1 a k bb)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the one pipeline on core `c`: the arrays as the region finds them; after the body at point `t` each input's
    buffer at its block and the output's at `out5` of the five input blocks; the invariant the scoped buffers that are no staging
    buffer (there are none); nothing owed; the sequence's full share dealt left / right between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out5 (grid0.coords t) (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  (before_in_of (dats m 0 c) 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  (before_in_of (dats m 0 c) 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  (before_in_of (dats m 0 c) 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  (before_in_of (dats m 0 c) 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  (before_in_of (dats m 0 c) 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the core's
    tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Dealing the arrays' shares among the windows -/

/-- The five distinct buffers behind the six windows' arrays, each whole at the full share, make the windows' arrays at
    entry: the sequence's points-to is divided along the share into a left half for the tile window and a right half for
    the halo window; each other array goes whole to its one window. -/
theorem hsplit (c : Dev nD) :
    (Pipeline.arrBufs spec0 c (V m c) : sProp 𝕄) ⊢ (dats m 0 c).arrays ((dats m 0 c).arrAt · 0) := by
  have hL : (bigSep (Finset.univ.image (Pipeline.arrRef spec0)) fun b => ((((c : Thread nD τ).loc b) ↦{fullShare} V m c b : sProp 𝕄)))
      = iprop((((c : Thread nD τ).loc main_arg0) ↦{fullShare} V m c main_arg0) ∗ (((c : Thread nD τ).loc main_v1) ↦{fullShare} V m c main_v1)
          ∗ (((c : Thread nD τ).loc main_v4) ↦{fullShare} V m c main_v4) ∗ (((c : Thread nD τ).loc main_v6) ↦{fullShare} V m c main_v6)
          ∗ (((c : Thread nD τ).loc main_v7) ↦{fullShare} V m c main_v7)) :=
    bigSep_eq_bigSepL_of_eq [main_arg0, main_v1, main_v4, main_v6, main_v7] (by decide) (by decide) _
  unfold Pipeline.arrBufs Dat.arrays
  rw [hL, bigSep_W0]
  iintro ⟨H0, H1, H4, H6, H7⟩
  ihave Hs := (pointsTo_share (PosShare.mem_left_op_right fullShare)).1 $$ H0
  icases Hs with ⟨Ha, Hb⟩
  isplitl [Ha]
  · rw [(arr_whole0 0).set_eq_univ]; iexact Ha
  isplitl [Hb]
  · rw [(arr_whole0 1).set_eq_univ]; iexact Hb
  isplitl [H1]
  · rw [(arr_whole0 2).set_eq_univ]; iexact H1
  isplitl [H4]
  · rw [(arr_whole0 3).set_eq_univ]; iexact H4
  isplitl [H6]
  · rw [(arr_whole0 4).set_eq_univ]; iexact H6
  · rw [(arr_whole0 5).set_eq_univ]; iexact H7

/-! ## The run -/

set_option backward.isDefEq.respectTransparency.types false in
/-- Every weakly fair execution of @main terminates, and every final state has every array of the pipeline at what the library
    computes from the proof data and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ _ => rfl)

/-- The run read at the program's arrays: the result array at what the blocks written back make of it, the four
    argument arrays unchanged. -/
theorem run_arrays : θ_run defs (onTc (τ := τ) (main (F := F))) ⟨m, fun _ => 0, ρ⟩ (fun r => ∀ c : Dev nD,
      r.2.mem ((c.tc : Thread nD τ).loc main_v7) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

/-- The frame: the program runs to the end, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_arrays m ρ)

end Cert.KernelIdeal.Body

end
-- ==== Proof.Spec.lean ====
/-
  The function both programs compute, stated once, index by index, on the extended reals.

  For a batch `b`, a time step `t` and a channel `d`:
    * the hidden row is  h(b,t,j) = silu (Σ_e x(b,t,e) · w1(j,e)),  silu z = z · 1/(1 + e^(-z));
    * the per-token filter tap `w` of channel `d` is row `4·d + w` of the second layer:
        k(b,t,d,w) = Σ_j h(b,t,j) · w2(4d+w, j) + b2(4d+w);
    * the sequence is padded by three zero rows on the left, and the causal window of width four ending at `t`
      reads the padded rows `t`, `t+1`, `t+2`, `t+3`, i.e. the rows `t-3 … t` of `x`;
    * the result is  silu (Σ_{w<4} xpad(b, t+w, d) · k(b,t,d,w)).
  No program is imported here.
-/
import Idealize.ShloMosaic.PureOps.Ideal
import Idealize.ShloMosaic.Lib.ValueIdx

noncomputable section

open scoped BigOperators

namespace Cert.Spec

open Idealize.ShloMosaic Idealize.ShloMosaic.ValueIdx

/-- Indices of the sequence `x : [2, 4096, 2048]`. -/
abbrev XIdx := (⟨3, ![2, 4096, 2048]⟩ : Shape).Idx
/-- Indices of the first layer `w1 : [2048, 2048]` (rows are hidden units). -/
abbrev W1Idx := (⟨2, ![2048, 2048]⟩ : Shape).Idx
/-- Indices of the second layer `w2 : [8192, 2048]` (row `4·d + w` is tap `w` of channel `d`). -/
abbrev W2Idx := (⟨2, ![8192, 2048]⟩ : Shape).Idx
/-- Indices of the second layer's bias `b2 : [8192]`. -/
abbrev B2Idx := (⟨1, ![8192]⟩ : Shape).Idx

/-- `silu z = z · 1/(1 + e^(-z))` on the extended reals. -/
def silu (z : EReal) : EReal := z * Ideal.logistic z

/-- The hidden unit `j` of token `(b, t)`. -/
def hid (x : XIdx → EReal) (w1 : W1Idx → EReal) (b : Fin 2) (t : Fin 4096) (j : Fin 2048) : EReal :=
  silu (∑ e : Fin 2048, x (ix3 b t e) * w1 (ix2 j e))

/-- The row of the second layer that holds tap `w` of channel `d`: `4·d + w`. -/
def tap (d : Fin 2048) (w : Fin 4) : Fin 8192 := ⟨d.val * 4 + w.val, by have := d.isLt; have := w.isLt; omega⟩

/-- Tap `w` of channel `d` of the filter generated for token `(b, t)`. -/
def ker (x : XIdx → EReal) (w1 : W1Idx → EReal) (w2 : W2Idx → EReal) (b2 : B2Idx → EReal)
    (b : Fin 2) (t : Fin 4096) (d : Fin 2048) (w : Fin 4) : EReal :=
  (∑ j : Fin 2048, hid x w1 b t j * w2 (ix2 (tap d w) j)) + b2 (ix1 (tap d w))

/-- The sequence padded by three zero rows on the left, read at row `s` of the padded time axis. -/
def xpad (x : XIdx → EReal) (b : Fin 2) (s : ℕ) (d : Fin 2048) : EReal :=
  if h : 3 ≤ s ∧ s - 3 < 4096 then x (ix3 b ⟨s - 3, h.2⟩ d) else 0

/-- The result at `(b, t, d)`. -/
def G (x : XIdx → EReal) (w1 : W1Idx → EReal) (w2 : W2Idx → EReal) (b2 : B2Idx → EReal) : XIdx → EReal := fun i =>
  silu (∑ w : Fin 4, xpad x (i 0) ((i 1).val + w.val) (i 2) * ker x w1 w2 b2 (i 0) (i 1) (i 2) w)

end Cert.Spec

end
-- ==== Proof.KernelIdealBlocks.lean ====
/-
  The five input blocks of a grid point, entry by entry, as entries of the ARGUMENT arrays.

  Grid point `t` is a batch `b` and a time tile `i` (32 tiles of 128 rows). At that point
    * the tile window's block row `r` is row `128·i + r` of `x(b, ·, ·)`;
    * the halo window's block is the 8 rows that end just before the tile — block `16·i − 1` of the 8-row blocks — or, at
      the first tile, block `0` (whose contents the body then discards): its row `p` is row `8·(16·i − 1) + p` of `x(b, ·, ·)`;
    * the three weight windows have the one block, the whole array, and their arrays are what the host operations before
      the region made of the arguments: the first layer transposed, `a(e, j) = w1(j, e)`; the second layer regrouped tap by
      tap, `k(w, j, d) = w2(4·d + w, j)`; its bias likewise, `bb(w, d) = b2(4·d + w)` (a change of float format is the identity on
      the extended reals);
    * the output window's block row `r` is row `128·i + r` of the result.
-/
import proofs.«130845_j22016002359687_1_alg».proof.Proof.KernelIdealFrame
import proofs.«130845_j22016002359687_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen Cert.KernelIdeal.Body

variable (m : (ℓ : Loc nD τ sig) → Buf (Elt Ideal) ℓ)

/-! ## The weights as the region finds them -/

/-- The first layer, transposed: `a(e, j) = w1(j, e)`. -/
theorem firstLayer_apply (c : Dev nD) (e j : Fin 2048) :
    (V m c main_v1 : S2048x2048.Idx → EReal) (ix2 e j) = m ((c : Thread nD τ).loc main_arg1) (ix2 j e) := by
  have h : (V m c main_v1 : S2048x2048.Idx → EReal)
      = (truncf (F := Ideal) .bf16 (transpose S2048x2048 [1, 0] (m (c, Proc.tc.devRef main_arg1) : S2048x2048.Idx → EReal)
          transposes_S2048x2048_S2048x2048_1_0) bitsLt_bf16_f32 : S2048x2048.Idx → EReal) := by
    dsimp only [V, hostOps0]; after_results; try rfl
  rw [h]
  show transpose S2048x2048 [1, 0] (m (c, Proc.tc.devRef main_arg1) : S2048x2048.Idx → EReal) transposes_S2048x2048_S2048x2048_1_0 (ix2 e j) = _
  exact transpose_apply [1, 0] _ _ (ix2 e j) (ix2 j e) (by intro b; match b with | ⟨0, _⟩ => rfl | ⟨1, _⟩ => rfl)

/-- The second layer, tap by tap: `k(w, j, d) = w2(4·d + w, j)`. -/
theorem taps_apply (c : Dev nD) (w : Fin 4) (j d : Fin 2048) :
    (V m c main_v4 : S4x2048x2048.Idx → EReal) (ix3 w j d) = m ((c : Thread nD τ).loc main_arg2) (ix2 (Cert.Spec.tap d w) j) := by
  have h : (V m c main_v4 : S4x2048x2048.Idx → EReal)
      = (truncf (F := Ideal) .bf16 (transpose S4x2048x2048 [1, 2, 0]
          (shapeCast S2048x4x2048 (m (c, Proc.tc.devRef main_arg2) : S8192x2048.Idx → EReal) shapeCasts_S8192x2048_S2048x4x2048)
          transposes_S2048x4x2048_S4x2048x2048_1_2_0) bitsLt_bf16_f32 : S4x2048x2048.Idx → EReal) := by
    dsimp only [V, hostOps0]; after_results; try rfl
  rw [h]
  show transpose S4x2048x2048 [1, 2, 0] (shapeCast S2048x4x2048 (m (c, Proc.tc.devRef main_arg2) : S8192x2048.Idx → EReal) shapeCasts_S8192x2048_S2048x4x2048)
      transposes_S2048x4x2048_S4x2048x2048_1_2_0 (ix3 w j d) = _
  rw [transpose_apply [1, 2, 0] _ _ (ix3 w j d) (ix3 d w j) (by intro b; match b with | ⟨0, _⟩ => rfl | ⟨1, _⟩ => rfl | ⟨2, _⟩ => rfl)]
  refine shapeCast_apply _ _ (ix3 d w j) (ix2 (Cert.Spec.tap d w) j) ?_
  rw [Shape.rowMajor_val_two, Shape.rowMajor_val_three]
  show (d.val * 4 + w.val) * 2048 + j.val = (d.val * 4 + w.val) * 2048 + j.val
  rfl

/-- The second layer's bias, tap by tap: `bb(w, d) = b2(4·d + w)`. -/
theorem bias_apply (c : Dev nD) (w : Fin 4) (d : Fin 2048) :
    (V m c main_v6 : S4x2048.Idx → EReal) (ix2 w d) = m ((c : Thread nD τ).loc main_arg3) (ix1 (Cert.Spec.tap d w)) := by
  have h : (V m c main_v6 : S4x2048.Idx → EReal)
      = (transpose S4x2048 [1, 0] (shapeCast S2048x4 (m (c, Proc.tc.devRef main_arg3) : S8192.Idx → EReal) shapeCasts_S8192_S2048x4)
          transposes_S2048x4_S4x2048_1_0 : S4x2048.Idx → EReal) := by
    dsimp only [V, hostOps0]; after_results; try rfl
  rw [h]
  rw [transpose_apply [1, 0] _ _ (ix2 w d) (ix2 d w) (by intro b; match b with | ⟨0, _⟩ => rfl | ⟨1, _⟩ => rfl)]
  refine shapeCast_apply _ _ (ix2 d w) (ix1 (Cert.Spec.tap d w)) ?_
  rw [Shape.rowMajor_val_one, Shape.rowMajor_val_two]
  show d.val * 4 + w.val = d.val * 4 + w.val
  rfl

/-! ## The windows' block indices, decided over the 64 grid points -/

/-- The tile window and the output window move together (batch, tile); the halo window is on the same batch at the 8-row
    block just before the tile (block 0 at the first tile); the weight windows stay at their one block; the time-tile
    coordinate the body reads is the output's block index on the time axis. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3)
    ∧ (win0_5.index t (1 : Fin 3) = 0 → win0_1.index t (1 : Fin 3) = 0)
    ∧ (win0_5.index t (1 : Fin 3) ≠ 0 → win0_1.index t (1 : Fin 3) + 1 = 16 * win0_5.index t (1 : Fin 3))
    ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (2 : Fin 3) = 0
    ∧ win0_5.index t (0 : Fin 3) ≤ 1 ∧ win0_5.index t (1 : Fin 3) ≤ 31
    ∧ ((grid0.coords t) (1 : Fin 2)).val = win0_5.index t (1 : Fin 3) :=
  (by decide +kernel : ∀ t : Fin grid0.N, _)

/-- Every (batch, tile) is some grid point's. -/
theorem idx_onto : ∀ (q0 : Fin 2) (q1 : Fin 32), ∃ t : Fin cfg0.N, win0_5.index t = ![q0.val, q1.val, 0] :=
  (by decide +kernel : ∀ (q0 : Fin 2) (q1 : Fin 32), ∃ t : Fin grid0.N, win0_5.index t = ![q0.val, q1.val, 0])

/-- The batch of grid point `t`. -/
def batchAt (t : Fin cfg0.N) : Fin 2 := ⟨win0_5.index t (0 : Fin 3), by have := (idx_facts t).2.2.2.2.2.2.2.2.2.2.2.2.2.2.2.1; omega⟩
/-- Row `r` of grid point `t`'s tile, as a row of the sequence: `128·i + r`. -/
def rowAt (t : Fin cfg0.N) (r : Fin 128) : Fin 4096 :=
  ⟨win0_5.index t (1 : Fin 3) * 128 + r.val, by have := (idx_facts t).2.2.2.2.2.2.2.2.2.2.2.2.2.2.2.2.1; have := r.isLt; omega⟩
/-- Row `p` of grid point `t`'s halo, as a row of the sequence. -/
def haloRowAt (t : Fin cfg0.N) (p : Fin 8) : Fin 4096 :=
  ⟨win0_1.index t (1 : Fin 3) * 8 + p.val, by
    obtain ⟨-, -, -, -, h0, h1, -, -, -, -, -, -, -, -, -, -, h31, -⟩ := idx_facts t
    have := p.isLt
    by_cases hz : win0_5.index t (1 : Fin 3) = 0
    · have := h0 hz; omega
    · have := h1 hz; omega⟩

/-! ## The blocks' positions in their arrays -/

theorem emb_out (t : Fin cfg0.N) (r : Fin 128) (d : Fin 2048) :
    ((cfg0.win 5).blk t).view.emb (ix3 (0 : Fin 1) r d) = ix3 (batchAt t) (rowAt t r) d := by
  have h2 := (idx_facts t).2.2.2.2.2.2.2.2.2.2.2.2.2.2.1
  funext a; apply Fin.ext
  match a with
  | ⟨0, _⟩ => show win0_5.index t (0 : Fin 3) * 1 + 1 * 0 = win0_5.index t (0 : Fin 3); omega
  | ⟨1, _⟩ => show win0_5.index t (1 : Fin 3) * 128 + 1 * r.val = win0_5.index t (1 : Fin 3) * 128 + r.val; omega
  | ⟨2, _⟩ => show win0_5.index t (2 : Fin 3) * 2048 + 1 * d.val = d.val; omega

theorem emb_tile (t : Fin cfg0.N) (r : Fin 128) (e : Fin 2048) :
    ((cfg0.win 0).blk t).view.emb (ix3 (0 : Fin 1) r e) = ix3 (batchAt t) (rowAt t r) e := by
  obtain ⟨h0, h1, h2, -⟩ := idx_facts t
  funext a; apply Fin.ext
  match a with
  | ⟨0, _⟩ => show win0_0.index t (0 : Fin 3) * 1 + 1 * 0 = win0_5.index t (0 : Fin 3); omega
  | ⟨1, _⟩ => show win0_0.index t (1 : Fin 3) * 128 + 1 * r.val = win0_5.index t (1 : Fin 3) * 128 + r.val; omega
  | ⟨2, _⟩ => show win0_0.index t (2 : Fin 3) * 2048 + 1 * e.val = e.val; omega

theorem emb_halo (t : Fin cfg0.N) (p : Fin 8) (d : Fin 2048) :
    ((cfg0.win 1).blk t).view.emb (ix3 (0 : Fin 1) p d) = ix3 (batchAt t) (haloRowAt t p) d := by
  obtain ⟨-, -, -, h0, -, -, h2, -⟩ := idx_facts t
  funext a; apply Fin.ext
  match a with
  | ⟨0, _⟩ => show win0_1.index t (0 : Fin 3) * 1 + 1 * 0 = win0_5.index t (0 : Fin 3); omega
  | ⟨1, _⟩ => show win0_1.index t (1 : Fin 3) * 8 + 1 * p.val = win0_1.index t (1 : Fin 3) * 8 + p.val; omega
  | ⟨2, _⟩ => show win0_1.index t (2 : Fin 3) * 2048 + 1 * d.val = d.val; omega

theorem emb_first (t : Fin cfg0.N) (e j : Fin 2048) : ((cfg0.win 2).blk t).view.emb (ix2 e j) = ix2 e j := by
  obtain ⟨-, -, -, -, -, -, -, h0, h1, -⟩ := idx_facts t
  funext a; apply Fin.ext
  match a with
  | ⟨0, _⟩ => show win0_2.index t (0 : Fin 2) * 2048 + 1 * e.val = e.val; omega
  | ⟨1, _⟩ => show win0_2.index t (1 : Fin 2) * 2048 + 1 * j.val = j.val; omega

theorem emb_taps (t : Fin cfg0.N) (w : Fin 4) (j d : Fin 2048) : ((cfg0.win 3).blk t).view.emb (ix3 w j d) = ix3 w j d := by
  obtain ⟨-, -, -, -, -, -, -, -, -, h0, h1, h2, -⟩ := idx_facts t
  funext a; apply Fin.ext
  match a with
  | ⟨0, _⟩ => show win0_3.index t (0 : Fin 3) * 4 + 1 * w.val = w.val; omega
  | ⟨1, _⟩ => show win0_3.index t (1 : Fin 3) * 2048 + 1 * j.val = j.val; omega
  | ⟨2, _⟩ => show win0_3.index t (2 : Fin 3) * 2048 + 1 * d.val = d.val; omega

theorem emb_bias (t : Fin cfg0.N) (w : Fin 4) (d : Fin 2048) : ((cfg0.win 4).blk t).view.emb (ix2 w d) = ix2 w d := by
  obtain ⟨-, -, -, -, -, -, -, -, -, -, -, -, h0, h1, -⟩ := idx_facts t
  funext a; apply Fin.ext
  match a with
  | ⟨0, _⟩ => show win0_4.index t (0 : Fin 2) * 4 + 1 * w.val = w.val; omega
  | ⟨1, _⟩ => show win0_4.index t (1 : Fin 2) * 2048 + 1 * d.val = d.val; omega

/-! ## The blocks' entries -/

theorem tile_apply (c : Dev nD) (t : Fin cfg0.N) (r : Fin 128) (e : Fin 2048) :
    iblk m c 0 t (ix3 (0 : Fin 1) r e) = m ((c : Thread nD τ).loc main_arg0) (ix3 (batchAt t) (rowAt t r) e) := by
  show V m c main_arg0 (((cfg0.win 0).blk t).view.emb (ix3 (0 : Fin 1) r e)) = _
  rw [emb_tile, V_main_arg0]

theorem halo_apply (c : Dev nD) (t : Fin cfg0.N) (p : Fin 8) (d : Fin 2048) :
    iblk m c 1 t (ix3 (0 : Fin 1) p d) = m ((c : Thread nD τ).loc main_arg0) (ix3 (batchAt t) (haloRowAt t p) d) := by
  show V m c main_arg0 (((cfg0.win 1).blk t).view.emb (ix3 (0 : Fin 1) p d)) = _
  rw [emb_halo, V_main_arg0]

theorem first_apply (c : Dev nD) (t : Fin cfg0.N) (e j : Fin 2048) :
    iblk m c 2 t (ix2 e j) = m ((c : Thread nD τ).loc main_arg1) (ix2 j e) := by
  show (V m c main_v1 : S2048x2048.Idx → EReal) (((cfg0.win 2).blk t).view.emb (ix2 e j)) = _
  rw [emb_first]; exact firstLayer_apply m c e j

theorem tapsBlock_apply (c : Dev nD) (t : Fin cfg0.N) (w : Fin 4) (j d : Fin 2048) :
    iblk m c 3 t (ix3 w j d) = m ((c : Thread nD τ).loc main_arg2) (ix2 (Cert.Spec.tap d w) j) := by
  show (V m c main_v4 : S4x2048x2048.Idx → EReal) (((cfg0.win 3).blk t).view.emb (ix3 w j d)) = _
  rw [emb_taps]; exact taps_apply m c w j d

theorem biasBlock_apply (c : Dev nD) (t : Fin cfg0.N) (w : Fin 4) (d : Fin 2048) :
    iblk m c 4 t (ix2 w d) = m ((c : Thread nD τ).loc main_arg3) (ix1 (Cert.Spec.tap d w)) := by
  show (V m c main_v6 : S4x2048.Idx → EReal) (((cfg0.win 4).blk t).view.emb (ix2 w d)) = _
  rw [emb_bias]; exact bias_apply m c w d

end Cert.KernelIdeal.Blocks

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.KernelIdealPoint.lean ====
/-
  The value one grid point's body stores, read entry by entry.

  For a row `r` of the time tile and a channel `d`, the stored value is
    silu (Σ_{w<4} xcat (r + w, d) · (Σ_j h (r, j) · k (w, j, d) + bb (w, d)))
  where `h (r, j) = silu (Σ_e x0 (r, e) · a (e, j))` is the hidden row of the tile's row `r`, and `xcat` is the tile
  with the three rows before it set on top: the halo's last three rows, or zeros at the first time tile.
-/
import proofs.«130845_j22016002359687_1_alg».proof.Proof.KernelIdealOut
import proofs.«130845_j22016002359687_1_alg».proof.Proof.Spec
import proofs.«130845_j22016002359687_1_alg».proof.Proof.LibMatRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Point

open Idealize.ShloMosaic Idealize.ShloMosaic.ValueIdx Idealize.SL.Sem
open Cert.KernelIdeal Cert.KernelIdeal.Gen Cert.KernelIdeal.Body
open Cert.KernelIdeal.Facts₀

variable [Cert.KernelIdeal.Facts]

/-- The hidden unit `j` of the tile's row `r`: `silu (Σ_e x0 (0, r, e) · a (e, j))`. -/
def hloc (x0 : Vec Ideal S1x128x2048 .f32) (a : Vec Ideal S2048x2048 .bf16) (r : Fin 128) (j : Fin 2048) : EReal :=
  Cert.Spec.silu (∑ e : Fin 2048, x0 (ix3 (0 : Fin 1) r e) * a (ix2 e j))

/-- The time tile with the three rows before it set on top, read at row `s` (of 131) and channel `d`: rows 0, 1, 2 are
    the halo's rows 5, 6, 7 — zeros at the first time tile, which has nothing before it —, and row `s ≥ 3` is the
    tile's row `s - 3`. -/
def xcat (i : grid0.Coords) (x0 : Vec Ideal S1x128x2048 .f32) (x1 : Vec Ideal S1x8x2048 .f32) (s : ℕ) (d : Fin 2048) : EReal :=
  if h : s < 3 then (if (i 1).val = 0 then 0 else x1 (ix3 (0 : Fin 1) (⟨5 + s, by omega⟩ : Fin 8) d))
  else if h' : s - 3 < 128 then x0 (ix3 (0 : Fin 1) (⟨s - 3, h'⟩ : Fin 128) d) else 0

/-! ## The product of a `128 × 2048` by a `2048 × 2048` matrix, at an entry -/

/-- The product into a zero accumulator, read at `(r, d)`: the sum over `l` of `A (r, l) · B (l, d)`. -/
theorem mm_apply {φ₁ φ₂ : FTy} (A : FVec Ideal S128x2048 φ₁) (B : FVec Ideal S2048x2048 φ₂) (r : Fin 128) (d : Fin 2048) :
    matmul dot_S128x2048_S2048x2048_S128x2048_1_0_0_1_n_n none A B (constant (F := Ideal) S128x2048 .f32 0x00000000#32) (ix2 r d)
      = ∑ l : Fin 2048, A (ix2 r l) * B (ix2 l d) :=
  Cert.MatRows.matmul_zero_apply (M := 128) (K := 2048) (N := 2048) dot_S128x2048_S2048x2048_S128x2048_1_0_0_1_n_n rfl rfl
    (fun j q => by
      unfold DotDims.lhsIdx
      rw [dif_neg (show ¬(0 : Fin S128x2048.rank) ∈ dot_S128x2048_S2048x2048_S128x2048_1_0_0_1_n_n.lhsBatch by decide),
        dif_pos (show (0 : Fin S128x2048.rank) ∈ dot_S128x2048_S2048x2048_S128x2048_1_0_0_1_n_n.lhsNonContracting by decide)]
      rfl)
    (fun j q => dot_S128x2048_S2048x2048_S128x2048_1_0_0_1_n_n.lhsIdx_val_of_single rfl j q)
    (fun j q => dot_S128x2048_S2048x2048_S128x2048_1_0_0_1_n_n.rhsIdx_val_of_single rfl j q)
    (fun j q => by
      unfold DotDims.rhsIdx
      rw [dif_neg (show ¬(1 : Fin S2048x2048.rank) ∈ dot_S128x2048_S2048x2048_S128x2048_1_0_0_1_n_n.rhsBatch by decide),
        dif_pos (show (1 : Fin S2048x2048.rank) ∈ dot_S128x2048_S2048x2048_S128x2048_1_0_0_1_n_n.rhsNonContracting by decide)]
      rfl)
    A B r d

/-! ## The loads: whole blocks, and the slabs of the taps and of the bias -/

theorem ld_tile (x0 : Vec Ideal S1x128x2048 .f32) : View.ld x0 rTile = x0 :=
  View.ld_unit_zero (S := S1x128x2048) (funext fun a => by
    match a with
    | ⟨0, _⟩ => rfl
    | ⟨1, _⟩ => rfl
    | ⟨2, _⟩ => rfl) _ x0

theorem ld_halo (x1 : Vec Ideal S1x8x2048 .f32) : View.ld x1 rHalo = x1 :=
  View.ld_unit_zero (S := S1x8x2048) (funext fun a => by
    match a with
    | ⟨0, _⟩ => rfl
    | ⟨1, _⟩ => rfl
    | ⟨2, _⟩ => rfl) _ x1

theorem ld_w1 (a : Vec Ideal S2048x2048 .bf16) : View.ld a rW1 = a :=
  View.ld_unit_zero (S := S2048x2048) (funext fun b => by
    match b with
    | ⟨0, _⟩ => rfl
    | ⟨1, _⟩ => rfl) _ a

/-- Slab `w` of the taps, loaded as a `[1, 2048, 2048]` block, holds at `(0, j, d)` the taps at `(w, j, d)`. -/
theorem ld_tap (k : Vec Ideal S4x2048x2048 .bf16) (w : Fin 4) (o : Nat) (ho : o = w.val)
    (inb : ∀ a, (![o, 0, 0] : Fin 3 → Nat) a + S1x2048x2048.size a ≤ S4x2048x2048.size a) (j d : Fin 2048) :
    View.ld k (Rect.unit (s := S4x2048x2048) ![o, 0, 0] S1x2048x2048.size inb) (ix3 (0 : Fin 1) j d) = k (ix3 w j d) := by
  subst ho
  refine congrArg k (funext fun a => Fin.ext ?_)
  match a with
  | ⟨0, _⟩ => show w.val + 1 * 0 = w.val; omega
  | ⟨1, _⟩ => show 0 + 1 * j.val = j.val; omega
  | ⟨2, _⟩ => show 0 + 1 * d.val = d.val; omega

/-- Row `w` of the bias, loaded as a `[1, 2048]` block, holds at `(0, d)` the bias at `(w, d)`. -/
theorem ld_bias (bb : Vec Ideal S4x2048 .f32) (w : Fin 4) (o : Nat) (ho : o = w.val)
    (inb : ∀ a, (![o, 0] : Fin 2 → Nat) a + S1x2048.size a ≤ S4x2048.size a) (d : Fin 2048) :
    View.ld bb (Rect.unit (s := S4x2048) ![o, 0] S1x2048.size inb) (ix2 (0 : Fin 1) d) = bb (ix2 w d) := by
  subst ho
  refine congrArg bb (funext fun a => Fin.ext ?_)
  match a with
  | ⟨0, _⟩ => show w.val + 1 * 0 = w.val; omega
  | ⟨1, _⟩ => show 0 + 1 * d.val = d.val; omega

/-! ## The hidden row -/

/-- The hidden layer's value at `(r, j)`. -/
theorem pay4_apply (x0 : Vec Ideal S1x128x2048 .f32) (a : Vec Ideal S2048x2048 .bf16) (r : Fin 128) (j : Fin 2048) :
    k0_pay4 (F := Ideal) x0 a (ix2 r j) = hloc x0 a r j := by
  unfold k0_pay4 k0_pay2 hloc
  refine congrArg Cert.Spec.silu ?_
  refine (mm_apply _ _ r j).trans ?_
  refine Finset.sum_congr rfl fun e _ => ?_
  refine congrArg₂ (· * ·) ?_ ?_
  · exact shapeCast_1ab_ab_apply x0 _ r e
  · exact congrFun (shapeCast_self a _) (ix2 e j)

/-! ## The tile with the three rows before it on top -/

/-- A select on "the time-tile number is 0": the `if` on the number. -/
theorem select_tile0 {α : Type} (h : Nat) (hh : h < 32) (A B : α) :
    Scalar.select (Scalar.cmpi .eq (BitVec.ofNat 32 h) 0#32) A B = if h = 0 then A else B := by
  interval_cases h <;> rfl

/-- The concatenation of the three rows before the tile and the tile, read at row `p` and channel `d`. -/
theorem pay3_apply (i : grid0.Coords) (x0 : Vec Ideal S1x128x2048 .f32) (x1 : Vec Ideal S1x8x2048 .f32)
    (p : Fin 131) (d : Fin 2048) :
    k0_pay3 (F := Ideal) i x0 x1 (ix2 p d) = xcat i x0 x1 p.val d := by
  unfold k0_pay3 k0_pay2 xcat
  by_cases hp : p.val < 3
  · rw [dif_pos hp]
    refine (concatenate_pair_apply_left (t := S131x2048) (s₁ := S3x2048) (s₂ := S128x2048) 0 _ _ _ (ix2 p d) rfl
      (ix2 (⟨p.val, hp⟩ : Fin 3) d) (fun b => by
        match b with
        | ⟨0, _⟩ => rfl
        | ⟨1, _⟩ => rfl)).trans ?_
    rw [select_tile0 (i 1).val (i 1).isLt]
    by_cases h0 : (i 1).val = 0
    · rw [if_pos h0, if_pos h0]
      exact Ideal.ofBits_zero_f32
    · rw [if_neg h0, if_neg h0]
      refine (slice2_axis0_apply 5 _ _ (⟨p.val, hp⟩ : Fin 3) d (⟨5 + p.val, by omega⟩ : Fin 8) rfl).trans ?_
      exact shapeCast_1ab_ab_apply x1 _ _ d
  · rw [dif_neg hp]
    have hq : p.val - 3 < 128 := by have := p.isLt; omega
    rw [dif_pos hq]
    refine (concatenate_pair_apply_right (t := S131x2048) (s₁ := S3x2048) (s₂ := S128x2048) 0 _ _ _ (ix2 p d) rfl rfl
      (ix2 (⟨p.val - 3, hq⟩ : Fin 128) d) (fun b hb => by
        match b with
        | ⟨0, _⟩ => exact absurd rfl hb
        | ⟨1, _⟩ => rfl) (by show p.val - 3 + 3 = p.val; omega)).trans ?_
    exact shapeCast_1ab_ab_apply x0 _ _ d

/-! ## One tap's term, and the stored value -/

/-- The bias row of a tap, spread down the `128` rows, read at `(r, d)`: the loaded `[1, 2048]` block at `(0, d)`. -/
theorem biasRows_apply (B : FVec Ideal S1x2048 .f32) (h1 : S1x2048.ShapeCasts S2048) (h2 : S2048.ShapeCasts S1x2048)
    (h3 : S1x2048.Broadcasts S128x2048) (r : Fin 128) (d : Fin 2048) :
    broadcastTo S128x2048 (shapeCast S1x2048 (shapeCast S2048 B h1) h2) h3 (ix2 r d) = B (ix2 (0 : Fin 1) d) :=
  (broadcastTo_1b_ab_apply _ h3 r d).trans
    ((shapeCast_a_1a_apply _ h2 (0 : Fin 1) d).trans (shapeCast_1a_a_apply B h1 d))

/-- Tap `w`'s term at `(r, d)`: row `r + w` of the stacked rows times the tap's filter value. -/
theorem tapTerm (i : grid0.Coords) (x0 : Vec Ideal S1x128x2048 .f32) (x1 : Vec Ideal S1x8x2048 .f32)
    (a : Vec Ideal S2048x2048 .bf16) (k : Vec Ideal S4x2048x2048 .bf16) (bb : Vec Ideal S4x2048 .f32)
    (K : FVec Ideal S1x2048x2048 .bf16) (B : FVec Ideal S1x2048 .f32) (w : Fin 4)
    (hK : ∀ j d : Fin 2048, K (ix3 (0 : Fin 1) j d) = k (ix3 w j d)) (hB : ∀ d : Fin 2048, B (ix2 (0 : Fin 1) d) = bb (ix2 w d))
    (o : Nat) (ho : o = w.val) (hs : S131x2048.Slices ![o, 0] S128x2048)
    (h0 : S1x2048x2048.ShapeCasts S2048x2048) (h1 : S1x2048.ShapeCasts S2048) (h2 : S2048.ShapeCasts S1x2048)
    (h3 : S1x2048.Broadcasts S128x2048) (r : Fin 128) (d : Fin 2048) :
    extractStridedSlice S128x2048 ![o, 0] (k0_pay3 (F := Ideal) i x0 x1) hs (ix2 r d)
        * (matmul dot_S128x2048_S2048x2048_S128x2048_1_0_0_1_n_n none (k0_pay4 (F := Ideal) x0 a) (shapeCast S2048x2048 K h0)
              (constant (F := Ideal) S128x2048 .f32 0x00000000#32) (ix2 r d)
            + broadcastTo S128x2048 (shapeCast S1x2048 (shapeCast S2048 B h1) h2) h3 (ix2 r d))
      = xcat i x0 x1 (r.val + w.val) d * ((∑ j : Fin 2048, hloc x0 a r j * k (ix3 w j d)) + bb (ix2 w d)) := by
  subst ho
  refine congrArg₂ (· * ·) ?_ (congrArg₂ (· + ·) ?_ ?_)
  · refine (slice2_axis0_apply w.val _ hs r d (⟨r.val + w.val, by have := r.isLt; have := w.isLt; omega⟩ : Fin 131)
      (Nat.add_comm _ _)).trans ?_
    exact pay3_apply i x0 x1 _ d
  · refine (mm_apply _ _ r d).trans ?_
    refine Finset.sum_congr rfl fun j _ => ?_
    refine congrArg₂ (· * ·) (pay4_apply x0 a r j) ?_
    exact (shapeCast_1ab_ab_apply K h0 j d).trans (hK j d)
  · exact (biasRows_apply B h1 h2 h3 r d).trans (hB d)

/-- The stored value at row `r`, channel `d`. -/
theorem stored_apply (i : grid0.Coords) (x0 : Vec Ideal S1x128x2048 .f32) (x1 : Vec Ideal S1x8x2048 .f32)
    (a : Vec Ideal S2048x2048 .bf16) (k : Vec Ideal S4x2048x2048 .bf16) (bb : Vec Ideal S4x2048 .f32)
    (r : Fin 128) (d : Fin 2048) :
    Body.stored (F := Ideal) i x0 x1 a k bb (ix3 (0 : Fin 1) r d)
      = Cert.Spec.silu (∑ w : Fin 4, xcat i x0 x1 (r.val + w.val) d
          * ((∑ j : Fin 2048, hloc x0 a r j * k (ix3 w j d)) + bb (ix2 w d))) := by
  unfold Body.stored
  rw [ld_tile, ld_halo, ld_w1]
  unfold k0_pay1 k0_pay5 k0_pay6 k0_pay7 k0_pay8
  refine (shapeCast_ab_1ab_apply _ _ (0 : Fin 1) r d).trans ?_
  refine congrArg Cert.Spec.silu ?_
  rw [Fin.sum_univ_four]
  refine congrArg₂ (· + ·) (congrArg₂ (· + ·) (congrArg₂ (· + ·) ?_ ?_) ?_) ?_
  · refine (congrArg₂ (· + ·) Ideal.ofBits_zero_f32
      (tapTerm i x0 x1 a k bb _ _ 0 (ld_tap k 0 0 rfl _) (ld_bias bb 0 0 rfl _) 0 rfl _ _ _ _ _ r d)).trans (zero_add _)
  · exact tapTerm i x0 x1 a k bb _ _ 1 (ld_tap k 1 1 rfl _) (ld_bias bb 1 1 rfl _) 1 rfl _ _ _ _ _ r d
  · exact tapTerm i x0 x1 a k bb _ _ 2 (ld_tap k 2 2 rfl _) (ld_bias bb 2 2 rfl _) 2 rfl _ _ _ _ _ r d
  · exact tapTerm i x0 x1 a k bb _ _ 3 (ld_tap k 3 3 rfl _) (ld_bias bb 3 3 rfl _) 3 rfl _ _ _ _ _ r d

end Cert.KernelIdeal.Point

end
-- ==== Proof.KernelIdealValue.lean ====
/-
  The kernel's result array after the run, as the specification of the argument arrays.

  Grid point `t` — batch `b`, time tile `i` — writes back block `(b, i)` of the result: rows `128·i … 128·i + 127` of batch `b`.
  What it writes at row `r`, channel `d` is the body's stored value there: silu of the four-tap sum over the window
  `x_cat(r + w)`, `w < 4`, where `x_cat` is the last three rows of the halo (zeros at the first tile) followed by the tile.
  Read through the blocks' positions, `x_cat(r + w)` is the zero-padded sequence at padded row `128·i + r + w`:
    * `r + w < 3` at the first tile: zero on both sides (the padded rows 0, 1, 2);
    * `r + w < 3` at a later tile: halo row `5 + r + w`, which is row `8·(16·i − 1) + 5 + r + w = 128·i + r + w − 3` of `x`;
    * `r + w ≥ 3`: tile row `r + w − 3`, which is row `128·i + r + w − 3` of `x`.
  The hidden row and the taps are the same sums over the same entries. The 64 blocks tile the result array, so it ends at the
  specification everywhere.
-/
import proofs.«130845_j22016002359687_1_alg».proof.Proof.KernelIdealBlocks
import proofs.«130845_j22016002359687_1_alg».proof.Proof.KernelIdealPoint

set_option maxRecDepth 16384

noncomputable section

namespace Cert.KernelIdeal.ArrayValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Body Cert.KernelIdeal.Blocks

variable (m : (ℓ : Loc nD τ sig) → Buf (Elt Ideal) ℓ) (ρ : Dev nD → PrngReg)

/-- The specification of core `c`'s argument arrays. -/
abbrev spec (c : Dev nD) : S2x4096x2048.Idx → EReal :=
  Cert.Spec.G (m ((c.tc : Thread nD τ).loc main_arg0)) (m ((c.tc : Thread nD τ).loc main_arg1))
    (m ((c.tc : Thread nD τ).loc main_arg2)) (m ((c.tc : Thread nD τ).loc main_arg3))

theorem hz3 : (![0, 0, 0] : Fin 3 → Nat) = fun _ => 0 := funext fun a => by fin_cases a <;> rfl

/-- The body's window row `r + w` is the zero-padded sequence at padded row `128·i + r + w`. -/
theorem window_eq (c : Dev nD) (t : Fin cfg0.N) (r : Fin 128) (w : Fin 4) (d : Fin 2048) :
    Cert.KernelIdeal.Point.xcat (grid0.coords t) (iblk m c 0 t) (iblk m c 1 t) (r.val + w.val) d
      = Cert.Spec.xpad (m ((c.tc : Thread nD τ).loc main_arg0)) (batchAt t) ((rowAt t r).val + w.val) d := by
  obtain ⟨-, -, -, -, h0, h1, -, -, -, -, -, -, -, -, -, -, h31, hc⟩ := idx_facts t
  have hr := r.isLt
  have hw := w.isLt
  have hrow : (rowAt t r).val = win0_5.index t (1 : Fin 3) * 128 + r.val := rfl
  unfold Cert.KernelIdeal.Point.xcat Cert.Spec.xpad
  by_cases hs : r.val + w.val < 3
  · rw [dif_pos hs]
    by_cases hz : win0_5.index t (1 : Fin 3) = 0
    · rw [if_pos (hc.trans hz), dif_neg (by rw [hrow]; omega)]
    · rw [if_neg (by rw [hc]; exact hz)]
      have h1' := h1 hz
      rw [dif_pos (show 3 ≤ (rowAt t r).val + w.val ∧ (rowAt t r).val + w.val - 3 < 4096 by rw [hrow]; omega)]
      refine (halo_apply m c t ⟨5 + (r.val + w.val), by omega⟩ d).trans ?_
      exact congrArg (fun q => m ((c.tc : Thread nD τ).loc main_arg0) (ix3 (batchAt t) q d)) (Fin.ext (by
        show win0_1.index t (1 : Fin 3) * 8 + (5 + (r.val + w.val)) = (rowAt t r).val + w.val - 3
        rw [hrow]; omega))
  · rw [dif_neg hs, dif_pos (show r.val + w.val - 3 < 128 by omega)]
    rw [dif_pos (show 3 ≤ (rowAt t r).val + w.val ∧ (rowAt t r).val + w.val - 3 < 4096 by rw [hrow]; omega)]
    refine (tile_apply m c t ⟨r.val + w.val - 3, by omega⟩ d).trans ?_
    exact congrArg (fun q => m ((c.tc : Thread nD τ).loc main_arg0) (ix3 (batchAt t) q d)) (Fin.ext (by
      show win0_5.index t (1 : Fin 3) * 128 + (r.val + w.val - 3) = (rowAt t r).val + w.val - 3
      rw [hrow]; omega))

/-- What grid point `t` writes back is block `t` of the specification. -/
theorem flushed_eq (c : Dev nD) (t : Fin cfg0.N) :
    (dats m 0 c).flushed 5 t = ((cfg0.win 5).blk t).view.read (Elt Ideal) (spec m c) := by
  show (cfg0.win 5).cut (grid0.coords t) ((dats m 0 c).after 5 t) = _
  rw [after0_5]
  unfold out5
  rw [View.canon_unit_zero hz3]
  funext y
  obtain ⟨u, r, d, rfl⟩ : ∃ (u : Fin 1) (r : Fin 128) (d : Fin 2048), y = ix3 u r d := ⟨y 0, y 1, y 2, eq_ix3 y⟩
  obtain rfl : u = 0 := Subsingleton.elim _ _
  show stored (grid0.coords t) (iblk m c 0 t) (iblk m c 1 t) (iblk m c 2 t) (iblk m c 3 t) (iblk m c 4 t) (ix3 (0 : Fin 1) r d)
      = spec m c (((cfg0.win 5).blk t).view.emb (ix3 (0 : Fin 1) r d))
  rw [emb_out]
  refine (Cert.KernelIdeal.Point.stored_apply (grid0.coords t) (iblk m c 0 t) (iblk m c 1 t) (iblk m c 2 t) (iblk m c 3 t) (iblk m c 4 t) r d).trans ?_
  show Cert.Spec.silu _ = Cert.Spec.silu _
  refine congrArg Cert.Spec.silu (Finset.sum_congr rfl fun w _ => ?_)
  refine congrArg₂ (· * ·) (window_eq m c t r w d) ?_
  unfold Cert.Spec.ker
  refine congrArg₂ (· + ·) (Finset.sum_congr rfl fun j _ => congrArg₂ (· * ·) ?_ (tapsBlock_apply m c t w j d)) (biasBlock_apply m c t w d)
  unfold Cert.KernelIdeal.Point.hloc Cert.Spec.hid
  exact congrArg Cert.Spec.silu (Finset.sum_congr rfl fun e _ => congrArg₂ (· * ·) (tile_apply m c t r e) (first_apply m c t e j))

/-- An index of the result is in point `t`'s block iff each coordinate is in the block's range on its axis. -/
theorem mem_blk (t : Fin cfg0.N) (i : S2x4096x2048.Idx) :
    i ∈ ((cfg0.win 5).blk t).view.set ↔ ∀ a : Fin 3, win0_5.index t a * S1x128x2048.size a ≤ (i a).val
      ∧ (i a).val < win0_5.index t a * S1x128x2048.size a + S1x128x2048.size a := by
  show i ∈ ((View.whole main_v7).slice (win0_5.rect t)).set ↔ _
  rw [View.set_slice_whole, Rect.mem_set_unit]
  exact Iff.rfl

/-- The 64 blocks tile the result: the block that holds row `s` of batch `b` is `(b, s / 128)`. -/
theorem cover (i : S2x4096x2048.Idx) : ∃ t : Fin cfg0.N, (cfg0.win 5).flush t = true ∧ i ∈ ((cfg0.win 5).blk t).view.set := by
  have hi0 : (i 0).val < 2 := (i 0).isLt
  have hi1 : (i 1).val < 4096 := (i 1).isLt
  have hi2 : (i 2).val < 2048 := (i 2).isLt
  obtain ⟨t, ht⟩ := idx_onto ⟨(i 0).val, hi0⟩ ⟨(i 1).val / 128, by omega⟩
  have q0 : win0_5.index t (0 : Fin 3) = (i 0).val := congrFun ht 0
  have q1 : win0_5.index t (1 : Fin 3) = (i 1).val / 128 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 2048 ≤ (i 2).val ∧ (i 2).val < win0_5.index t (2 : Fin 3) * 2048 + 2048; omega

/-- The result array after the run is the specification. -/
theorem final (c : Dev nD) : (dats m 0 c).arrAt 5 cfg0.N = spec m c :=
  (dats m 0 c).arrAt_eq_of_cover 5 (spec m c) (fun t _ => flushed_eq m c t) cover

/-- The run: every weakly fair execution terminates with the result array at the specification of the arguments, the
    arguments unchanged. -/
theorem run : θ_run defs (onTc (τ := τ) (main (F := Ideal))) ⟨m, fun _ => 0, ρ⟩ (fun r => ∀ c : Dev nD,
      r.2.mem ((c.tc : Thread nD τ).loc main_v7) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m c), (h c).2⟩) (run_arrays (F := Ideal) m ρ)

end Cert.KernelIdeal.ArrayValue

end
-- ==== Proof.RefValue.lean ====
/-
  The reference's run read as the specification: index by index, the value the reference's last operation writes is
  the function `Cert.Spec.G` of the four argument arrays.

  The chain, from the result inwards: the outer silu; the four-term sum over the tap axis, folded from the zero word;
  each term the product of the padded sequence read at row `t + w` (four slices of the padded array at offsets
  0..3, each given a unit last axis and joined along it) with the generated filter tap (the second layer's output
  `[2, 4096, 8192]` re-read as `[2, 4096, 2048, 4]`: column `4·d + w`); the second layer a sum over the
  hidden units plus the bias; the hidden units the silu of the first layer's sum.
-/
import proofs.«130845_j22016002359687_1_alg».proof.Proof.Gen.ReferenceIdeal.Read
import proofs.«130845_j22016002359687_1_alg».proof.Proof.Spec
import Idealize.ShloMosaic.Lib.KernelVsHost

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The argument arrays, typed as the generated stages type them. -/
abbrev XArr := (⟨S2x4096x2048, .f32⟩ : BufTy).Contents (Elt Ideal)
abbrev W1Arr := (⟨S2048x2048, .f32⟩ : BufTy).Contents (Elt Ideal)
abbrev W2Arr := (⟨S8192x2048, .f32⟩ : BufTy).Contents (Elt Ideal)
abbrev B2Arr := (⟨S8192, .f32⟩ : BufTy).Contents (Elt Ideal)

/-! ## The two constants -/

/-- The word of `1.0` is the extended real `1`. -/
theorem ofBits_one_f32 : Ideal.ofBits .f32 0x3F800000#32 = 1 := by
  simp [Ideal.ofBits, Ideal.ieee, -EReal.coe_mul]; norm_num

/-- The reference's expansion of silu, `z · (1 / (1 + e^(-z)))` with both ones the word of `1.0`, is the
    specification's. -/
theorem silu_read (z : Ideal .f32) :
    FloatOps.mulf z (FloatOps.hostDivf (FloatOps.ofBits .f32 0x3F800000#32)
      (FloatOps.addf (FloatOps.ofBits .f32 0x3F800000#32) (FloatOps.hostUnary .exp (FloatOps.hostNegf z))))
      = Cert.Spec.silu z := by
  simp only [Ideal.mulf_def, Ideal.hostDivf_def, Ideal.addf_def, Ideal.hostUnary_exp_def, Ideal.hostNegf_def,
    Ideal.negf_def, Ideal.ofBits_def, ofBits_one_f32, Cert.Spec.silu, Ideal.logistic]

/-- The padding value, the integer zero converted, is the extended real `0`. -/
theorem pad_value : val_main_call1_v0 (F := Ideal) (Shape.Idx.first h_S_) = 0 := by
  rw [val_main_call1_v0_apply, val_main_c_apply]
  show (((0#32 : BitVec 32).toInt : ℝ) : EReal) = 0
  simp

/-! ## The index maps of the generated stages, at an index given by its coordinates -/

theorem lidx_v0 (b : Fin 2) (t : Fin 4096) (j k : Fin 2048) : lidx_main_v0 (ix3 b t j) k = ix3 b t k :=
  funext fun a => by match a with | ⟨0, _⟩ => rfl | ⟨1, _⟩ => rfl | ⟨2, _⟩ => rfl

theorem ridx_v0 (b : Fin 2) (t : Fin 4096) (j k : Fin 2048) : ridx_main_v0 (ix3 b t j) k = ix2 j k :=
  funext fun a => by match a with | ⟨0, _⟩ => rfl | ⟨1, _⟩ => rfl

theorem lidx_v2 (b : Fin 2) (t : Fin 4096) (r : Fin 8192) (k : Fin 2048) : lidx_main_v2 (ix3 b t r) k = ix3 b t k :=
  funext fun a => by match a with | ⟨0, _⟩ => rfl | ⟨1, _⟩ => rfl | ⟨2, _⟩ => rfl

theorem ridx_v2 (b : Fin 2) (t : Fin 4096) (r : Fin 8192) (k : Fin 2048) : ridx_main_v2 (ix3 b t r) k = ix2 r k :=
  funext fun a => by match a with | ⟨0, _⟩ => rfl | ⟨1, _⟩ => rfl

theorem idx_v3_v4 (b : Fin 2) (t : Fin 4096) (r : Fin 8192) : idx_main_v3 (idx_main_v4 (ix3 b t r)) = ix1 r :=
  funext fun a => by match a with | ⟨0, _⟩ => rfl

theorem idx_v18 (b : Fin 2) (t : Fin 4096) (d : Fin 2048) (w : Fin 4) : idx_main_v18 (ix3 b t d) w = ix4 b t d w :=
  funext fun a => by match a with | ⟨0, _⟩ => rfl | ⟨1, _⟩ => rfl | ⟨2, _⟩ => rfl | ⟨3, _⟩ => rfl

/-! ## The hidden layer and the generated filter -/

/-- The first layer followed by silu is the specification's hidden unit. -/
theorem hid_read (x : XArr) (w1 : W1Arr) (b : Fin 2) (t : Fin 4096) (j : Fin 2048) :
    val_main_v1 (F := Ideal) x w1 (ix3 b t j) = Cert.Spec.hid x w1 b t j := by
  rw [val_main_v1_apply, val_main_call0_v5_apply, val_main_call0_v4_apply, val_main_call0_cst_0_apply,
    val_main_call0_v3_apply, val_main_call0_v2_apply, val_main_call0_cst_apply, val_main_call0_v1_apply,
    val_main_call0_v0_apply, silu_read, val_main_v0_apply]
  unfold Cert.Spec.hid
  refine congrArg Cert.Spec.silu (Finset.sum_congr rfl fun k _ => ?_)
  rw [lidx_v0, ridx_v0]

/-- The second layer's output re-read with a tap axis: entry `(b, t, d, w)` is column `4·d + w`. -/
theorem reshape_read (x : XArr) (w1 : W1Arr) (w2 : W2Arr) (b2 : B2Arr) (b : Fin 2) (t : Fin 4096) (d : Fin 2048) (w : Fin 4) :
    val_main_v6 (F := Ideal) x w1 w2 b2 (ix4 b t d w) = val_main_v5 (F := Ideal) x w1 w2 b2 (ix3 b t (Cert.Spec.tap d w)) := by
  unfold val_main_v6
  generalize val_main_v5 (F := Ideal) x w1 w2 b2 = y
  exact shapeCast_apply y shapeCasts_S2x4096x8192_S2x4096x2048x4 (ix4 b t d w) (ix3 b t (Cert.Spec.tap d w)) (by
    rw [Shape.rowMajor_val_three, Shape.rowMajor_val_four]
    have hb := b.isLt; have ht := t.isLt; have hd := d.isLt; have hw := w.isLt
    show (b.val * 4096 + t.val) * 8192 + (d.val * 4 + w.val) = ((b.val * 4096 + t.val) * 2048 + d.val) * 4 + w.val
    omega)

/-- The generated filter: tap `w` of channel `d` for token `(b, t)`. -/
theorem ker_read (x : XArr) (w1 : W1Arr) (w2 : W2Arr) (b2 : B2Arr) (b : Fin 2) (t : Fin 4096) (d : Fin 2048) (w : Fin 4) :
    val_main_v6 (F := Ideal) x w1 w2 b2 (ix4 b t d w) = Cert.Spec.ker x w1 w2 b2 b t d w := by
  rw [reshape_read, val_main_v5_apply, val_main_v2_apply, val_main_v4_apply, val_main_v3_apply, idx_v3_v4, Ideal.addf_def]
  unfold Cert.Spec.ker
  refine congrArg (· + b2 (ix1 (Cert.Spec.tap d w))) (Finset.sum_congr rfl fun k _ => ?_)
  rw [lidx_v2, ridx_v2, hid_read]

/-! ## The padded sequence and its four shifted copies -/

/-- The sequence with three rows of the padding value before it, read at row `s` of the padded axis. -/
theorem pad_read (x : XArr) (b : Fin 2) (s : ℕ) (hs : s < 4099) (d : Fin 2048) :
    val_main_v7 (F := Ideal) x (ix3 b (⟨s, hs⟩ : Fin 4099) d) = Cert.Spec.xpad x b s d := by
  unfold val_main_v7 Cert.Spec.xpad
  by_cases h : 3 ≤ s ∧ s - 3 < 4096
  · rw [dif_pos h]
    exact pad_apply_of_inside _ _ _ x _ pads_S2x4096x2048_S2x4099x2048_000_300_000 h_S_
      (ix3 b (⟨s, hs⟩ : Fin 4099) d) (ix3 b (⟨s - 3, h.2⟩ : Fin 4096) d) (fun a => by
        match a with
        | ⟨0, _⟩ => show b.val = 0 + b.val * (0 + 1); omega
        | ⟨1, _⟩ => show s = 3 + (s - 3) * (0 + 1); omega
        | ⟨2, _⟩ => show d.val = 0 + d.val * (0 + 1); omega)
  · rw [dif_neg h]
    rw [pad_apply_of_not_inside _ _ _ x _ pads_S2x4096x2048_S2x4099x2048_000_300_000 h_S_
      (ix3 b (⟨s, hs⟩ : Fin 4099) d) (1 : Fin 3) (by
        show ¬(3 ≤ s ∧ (s - 3) % (0 + 1) = 0 ∧ (s - 3) / (0 + 1) < 4096)
        omega)]
    exact pad_value

/-- Copy `w` of the padded sequence (the slice at offset `w`, with a unit last axis) at `(b, t, d, 0)`
    is the padded sequence at row `t + w`. -/
theorem piece0_read (x : XArr) (b : Fin 2) (t : Fin 4096) (d : Fin 2048) :
    val_main_v12 (F := Ideal) x (ix4 b t d (0 : Fin 1)) = Cert.Spec.xpad x b (t.val + 0) d := by
  have ht := t.isLt
  rw [val_main_v12_apply, val_main_v8_apply,
    show idx_main_v8 (idx_main_v12 (ix4 b t d (0 : Fin 1))) = ix3 b (⟨t.val + 0, by omega⟩ : Fin 4099) d from
      funext fun a => Fin.ext (by match a with | ⟨0, _⟩ => rfl | ⟨1, _⟩ => rfl | ⟨2, _⟩ => rfl),
    pad_read]

theorem piece1_read (x : XArr) (b : Fin 2) (t : Fin 4096) (d : Fin 2048) :
    val_main_v13 (F := Ideal) x (ix4 b t d (0 : Fin 1)) = Cert.Spec.xpad x b (t.val + 1) d := by
  have ht := t.isLt
  rw [val_main_v13_apply, val_main_v9_apply,
    show idx_main_v9 (idx_main_v13 (ix4 b t d (0 : Fin 1))) = ix3 b (⟨t.val + 1, by omega⟩ : Fin 4099) d from
      funext fun a => Fin.ext (by
        match a with | ⟨0, _⟩ => rfl | ⟨1, _⟩ => exact Nat.add_comm 1 t.val | ⟨2, _⟩ => rfl),
    pad_read]

theorem piece2_read (x : XArr) (b : Fin 2) (t : Fin 4096) (d : Fin 2048) :
    val_main_v14 (F := Ideal) x (ix4 b t d (0 : Fin 1)) = Cert.Spec.xpad x b (t.val + 2) d := by
  have ht := t.isLt
  rw [val_main_v14_apply, val_main_v10_apply,
    show idx_main_v10 (idx_main_v14 (ix4 b t d (0 : Fin 1))) = ix3 b (⟨t.val + 2, by omega⟩ : Fin 4099) d from
      funext fun a => Fin.ext (by
        match a with | ⟨0, _⟩ => rfl | ⟨1, _⟩ => exact Nat.add_comm 2 t.val | ⟨2, _⟩ => rfl),
    pad_read]

theorem piece3_read (x : XArr) (b : Fin 2) (t : Fin 4096) (d : Fin 2048) :
    val_main_v15 (F := Ideal) x (ix4 b t d (0 : Fin 1)) = Cert.Spec.xpad x b (t.val + 3) d := by
  have ht := t.isLt
  rw [val_main_v15_apply, val_main_v11_apply,
    show idx_main_v11 (idx_main_v15 (ix4 b t d (0 : Fin 1))) = ix3 b (⟨t.val + 3, by omega⟩ : Fin 4099) d from
      funext fun a => Fin.ext (by
        match a with | ⟨0, _⟩ => rfl | ⟨1, _⟩ => exact Nat.add_comm 3 t.val | ⟨2, _⟩ => rfl),
    pad_read]

/-- Off the joined axis an index of a piece has the coordinates of the index of the whole. -/
theorem off_axis (b : Fin 2) (t : Fin 4096) (d : Fin 2048) (w : Fin 4) :
    ∀ c : Fin S2x4096x2048x1.rank, c.cast (rfl : S2x4096x2048x1.rank = S2x4096x2048x4.rank) ≠ (3 : Fin 4) →
      ((ix4 b t d (0 : Fin 1)) c).val = ((ix4 b t d w) (c.cast rfl)).val := fun c hc => by
  match c with
  | ⟨0, _⟩ => rfl
  | ⟨1, _⟩ => rfl
  | ⟨2, _⟩ => rfl
  | ⟨3, _⟩ => exact absurd rfl hc

/-- The four copies joined along the tap axis, at `(b, t, d, w)`: the padded sequence at row `t + w`. -/
theorem window_read (x : XArr) (b : Fin 2) (t : Fin 4096) (d : Fin 2048) (w : Fin 4) :
    val_main_v16 (F := Ideal) x (ix4 b t d w) = Cert.Spec.xpad x b (t.val + w.val) d := by
  unfold val_main_v16
  match w with
  | ⟨0, h0⟩ =>
    exact Eq.trans (concatenate_apply_piece (3 : Fin 4) _ _ (ix4 b t d ⟨0, h0⟩) 0 (by show 0 < 4; omega) S2x4096x2048x1
      (val_main_v12 (F := Ideal) x) rfl rfl 0 rfl (ix4 b t d (0 : Fin 1)) (off_axis b t d _) rfl) (piece0_read x b t d)
  | ⟨1, h1⟩ =>
    exact Eq.trans (concatenate_apply_piece (3 : Fin 4) _ _ (ix4 b t d ⟨1, h1⟩) 1 (by show 1 < 4; omega) S2x4096x2048x1
      (val_main_v13 (F := Ideal) x) rfl rfl 1 rfl (ix4 b t d (0 : Fin 1)) (off_axis b t d _) rfl) (piece1_read x b t d)
  | ⟨2, h2⟩ =>
    exact Eq.trans (concatenate_apply_piece (3 : Fin 4) _ _ (ix4 b t d ⟨2, h2⟩) 2 (by show 2 < 4; omega) S2x4096x2048x1
      (val_main_v14 (F := Ideal) x) rfl rfl 2 rfl (ix4 b t d (0 : Fin 1)) (off_axis b t d _) rfl) (piece2_read x b t d)
  | ⟨3, h3⟩ =>
    exact Eq.trans (concatenate_apply_piece (3 : Fin 4) _ _ (ix4 b t d ⟨3, h3⟩) 3 (by show 3 < 4; omega) S2x4096x2048x1
      (val_main_v15 (F := Ideal) x) rfl rfl 3 rfl (ix4 b t d (0 : Fin 1)) (off_axis b t d _) rfl) (piece3_read x b t d)

/-! ## The reference is the specification -/

/-- The value the reference's last operation writes is `Cert.Spec.G` of the argument arrays. -/
theorem val_eq_G (x : XArr) (w1 : W1Arr) (w2 : W2Arr) (b2 : B2Arr) :
    val_main_v19 (F := Ideal) x w1 w2 b2 = Cert.Spec.G x w1 w2 b2 := by
  funext i
  obtain ⟨b, t, d, rfl⟩ : ∃ (b : Fin 2) (t : Fin 4096) (d : Fin 2048), i = ix3 b t d := ⟨i 0, i 1, i 2, eq_ix3 i⟩
  show _ = Cert.Spec.silu (∑ w : Fin 4, Cert.Spec.xpad x b (t.val + w.val) d * Cert.Spec.ker x w1 w2 b2 b t d w)
  rw [val_main_v19_apply, val_main_call2_v5_apply, val_main_call2_v4_apply, val_main_call2_cst_0_apply,
    val_main_call2_v3_apply, val_main_call2_v2_apply, val_main_call2_cst_apply, val_main_call2_v1_apply,
    val_main_call2_v0_apply, silu_read, val_main_v18_apply, val_main_cst_apply, Ideal.ofBits_def,
    Ideal.ofBits_zero_f32, zero_add]
  refine congrArg Cert.Spec.silu (Finset.sum_congr rfl fun w _ => ?_)
  rw [val_main_v17_apply, idx_v18, window_read, ker_read, Ideal.mulf_def]

/-- The run's result term is the specification of the launch's argument arrays. -/
theorem result_eq (m : (ℓ : Loc nD τ sig) → Buf (Elt Ideal) ℓ) (c : Dev nD) :
    Cert.ReferenceIdeal.Value.res_main_v19 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3)) :=
  (val_main_v19_eq m c).trans (val_eq_G _ _ _ _)

/-- Every weakly fair execution of the reference ends with its result array at the specification of the argument
    arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m c), (h c).2⟩)
    (Cert.ReferenceIdeal.Value.run (F := Ideal) m ρ)

end Cert.ReferenceIdeal.RefValue

end
-- ==== Proof.lean ====
/-
  A dynamic short convolution: for every token a small network generates a causal depthwise filter of four taps per channel,
  which is applied to the token's window of the sequence.

  For a batch `b`, a time step `t` and a channel `d` both programs compute, on the extended reals,
      silu (Σ_{w<4} xpad(b, t + w, d) · (Σ_j silu(Σ_e x(b,t,e)·w1(j,e)) · w2(4d + w, j) + b2(4d + w))),
  where `xpad` is the sequence with three zero rows prepended on the time axis and `silu z = z · 1/(1 + e^(-z))`
  (module Spec). The reference spells it with whole-array operations: two contractions, a pad, four shifted slices stacked on a
  new last axis, a product and a sum over that axis. The kernel spells it tile by tile: 128 rows of one batch at a time, the three
  rows before the tile taken from a second window over the same sequence (zeros at the first tile), the four taps applied as
  four matrix products accumulated from zero. On the extended reals a change of float format is the identity, the logistic
  function IS `1/(1 + e^(-z))`, and the only rearrangement between the two is the grouping of a four-term sum, which needs no
  finiteness: the precondition is never opened.

    * The three frames: the kernel's run (at both instances) is the frame run of a pipelined body that reads the sequence through
      two windows, whose full share is divided between them (modules KernelFrame, KernelIdealFrame over LibSharedFrame); the
      reference's is its run with the result dropped.
    * The idealization changes no operation, so there is nothing to preserve.
    * The values: the kernel's result array is the specification block by block, and the 64 blocks tile it (KernelIdealPoint,
      KernelIdealBlocks, KernelIdealValue); the reference's result is the specification operation by operation (RefValue).
-/
import proofs.«130845_j22016002359687_1_alg».proof.Defs
import proofs.«130845_j22016002359687_1_alg».proof.Proof.Gen.Kernel
import proofs.«130845_j22016002359687_1_alg».proof.Proof.Gen.KernelIdeal
import proofs.«130845_j22016002359687_1_alg».proof.Proof.Gen.ReferenceIdeal
import proofs.«130845_j22016002359687_1_alg».proof.Proof.Gen.Pre_finite_inputs
import proofs.«130845_j22016002359687_1_alg».proof.Proof.KernelFrame
import proofs.«130845_j22016002359687_1_alg».proof.Proof.KernelIdealFrame
import proofs.«130845_j22016002359687_1_alg».proof.Proof.KernelIdealValue
import proofs.«130845_j22016002359687_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_kernel : Cert.frame_Kernel := fun m ρ _ => Cert.Kernel.Body.frame (F := Bits) m ρ

/-- So does the kernel read on the extended reals. -/
theorem frame_kernelIdeal : Cert.frame_KernelIdeal := fun m ρ _ => Cert.KernelIdeal.Body.frame (F := Ideal) m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end with the specification of those arguments in their result
    arrays. -/
theorem algebraic : Cert.algebraic_KernelIdeal_ReferenceIdeal := by
  intro m ρ m' ρ' _ hagree
  refine ⟨fun c => Cert.KernelIdeal.ArrayValue.spec m c, Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  show Cert.Spec.G _ _ _ _ = Cert.Spec.G _ _ _ _
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
